-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S2048x16x1024 : Shape := ⟨3, ![2048, 16, 1024]⟩
abbrev S2048x16x512 : Shape := ⟨3, ![2048, 16, 512]⟩
abbrev S_ : Shape := ⟨0, ![]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S2048x16x512 : S_.BroadcastsInDim S2048x16x512 (![] : Fin 0 → Fin S2048x16x512.rank)
  reducesTo_S2048x16x512_S_d0_1_2 : S2048x16x512.ReducesTo [0, 1, 2] S_

variable [Facts]

def fn {F : FTy → Type} [FloatOps F] (main_arg0 : IVec S2048x16 32) (main_arg1 : FVec F S2048x16x1024 .f32) (main_arg2 : FVec F S2048x16x512 .f32) : IVec S_ 1 :=
  let main_v0 : FVec F S2048x16x1024 .f32 := Host.absf main_arg1
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S2048x16x512 .f32 := Host.absf main_arg2
  let main_cst_0 : FVec F S_ .f32 := constant S_ .f32 0x7F800000#32
  let main_v5 : FVec F S2048x16x512 .f32 := broadcastInDim S2048x16x512 ![] bcast_S_S2048x16x512 main_cst_0
  let main_v6 : IVec S2048x16x512 1 := cmpf .olt main_v4 main_v5
  let main_c_1 : IVec S_ 1 := constantI S_ 1 1#1
  let main_v7 : IVec S_ 1 := (fun x v => Host.reduce IntOp.andi x v reducesTo_S2048x16x512_S_d0_1_2 h_S_) main_v6 main_c_1
  let main_v8 : IVec S_ 1 := andi main_v3 main_v7
  main_v8
-- ==== Kernel.lean ====
abbrev S2048x16 : Shape := ⟨2, ![2048, 16]⟩
abbrev S2048x16x1024 : Shape := ⟨3, ![2048, 16, 1024]⟩
abbrev S2048x16x512 : Shape := ⟨3, ![2048, 16, 512]⟩
abbrev S2048x8192 : Shape := ⟨2, ![2048, 8192]⟩
abbrev S1024x512 : Shape := ⟨2, ![1024, 512]⟩
abbrev S512x512 : Shape := ⟨2, ![512, 512]⟩
abbrev S1024x1 : Shape := ⟨2, ![1024, 1]⟩
abbrev S1024 : Shape := ⟨1, ![1024]⟩

abbrev nBuf : Space → Nat
  | .hbm => 11
  | .vmem => 8
  | .smem => 0
  | _ => 0

abbrev bufTy : (tb : Table) → Fin (tcTables nBuf tb) → BufTy
  | .hbm, ⟨0, _⟩ => ⟨S2048x16, .i32⟩
  | .hbm, ⟨1, _⟩ => ⟨S2048x16x1024, .f32⟩
  | .hbm, ⟨2, _⟩ => ⟨S2048x16x512, .f32⟩
  | .hbm, ⟨3, _⟩ => ⟨S2048x16x512, .f32⟩
  | .hbm, ⟨4, _⟩ => ⟨S2048x16x512, .f32⟩
  | .hbm, ⟨5, _⟩ => ⟨S2048x16x512, .f32⟩
  | .hbm, ⟨6, _⟩ => ⟨S2048x16x512, .bf16⟩
  | .hbm, ⟨7, _⟩ => ⟨S2048x8192, .bf16⟩
  | .hbm, ⟨8, _⟩ => ⟨S2048x8192, .f32⟩
  | .hbm, ⟨9, _⟩ => ⟨S2048x8192, .f32⟩
  | .hbm, ⟨10, _⟩ => ⟨S2048x16x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1, .f32⟩
  | _, _ => ⟨S2048x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S2048x16x1024_S2048x16x512_0_0_0 : S2048x16x1024.Slices ![0, 0, 0] S2048x16x512
  slices_S2048x16x1024_S2048x16x512_0_0_512 : S2048x16x1024.Slices ![0, 0, 512] S2048x16x512
  bitsLt_bf16_f32 : FTy.bits .bf16 < FTy.bits .f32
  shapeCasts_S2048x16x512_S2048x8192 : S2048x16x512.ShapeCasts S2048x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  reduces_S1024x512_S1024 : S1024x512.Reduces [1] S1024
  shapeCasts_S1024_S1024x1 : S1024.ShapeCasts S1024x1
  broadcasts_S1024x1_S1024x512 : S1024x1.Broadcasts S1024x512
  shapeCasts_S2048x8192_S2048x16x512 : S2048x8192.ShapeCasts S2048x16x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x8192.size a
  hwx0_0 : ∀ i : grid0.Coords, EltTy.bits .f32 = 32 ∨ (Rect.block (s := S2048x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x8192.size a
  hwx0_1 : ∀ i : grid0.Coords, EltTy.bits .bf16 = 32 ∨ (Rect.block (s := S2048x8192) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x8192.size a
  hwx0_2 : ∀ i : grid0.Coords, EltTy.bits .f32 = 32 ∨ (Rect.block (s := S2048x8192) S1024x512.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x16 : Shape := ⟨2, ![2048, 16]⟩
abbrev S2048x16x1024 : Shape := ⟨3, ![2048, 16, 1024]⟩
abbrev S2048x16x512 : Shape := ⟨3, ![2048, 16, 512]⟩
abbrev S2048x16x2x512 : Shape := ⟨4, ![2048, 16, 2, 512]⟩
abbrev S_ : Shape := ⟨0, ![]⟩
abbrev S16x2048x512 : Shape := ⟨3, ![16, 2048, 512]⟩
abbrev S16x2048x2048 : Shape := ⟨3, ![16, 2048, 2048]⟩
abbrev S16x2048 : Shape := ⟨2, ![16, 2048]⟩
abbrev S16x1x2048 : Shape := ⟨3, ![16, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x16, .i32⟩
  | .hbm, ⟨1, _⟩ => ⟨S2048x16x1024, .f32⟩
  | .hbm, ⟨2, _⟩ => ⟨S2048x16x512, .f32⟩
  | .hbm, ⟨3, _⟩ => ⟨S2048x16x2x512, .f32⟩
  | .hbm, ⟨4, _⟩ => ⟨S_, .f32⟩
  | .hbm, ⟨5, _⟩ => ⟨S2048x16x512, .f32⟩
  | .hbm, ⟨6, _⟩ => ⟨S16x2048x512, .f32⟩
  | .hbm, ⟨7, _⟩ => ⟨S16x2048x512, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S16x1x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x512, .f32⟩
  | .hbm, ⟨17, _⟩ => ⟨S2048x16x512, .f32⟩
  | _, _ => ⟨S2048x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S2048x16x1024_S2048x16x2x512 : S2048x16x1024.ShapeCasts S2048x16x2x512
  reducesTo_S2048x16x2x512_S2048x16x512_d2 : S2048x16x2x512.ReducesTo [2] S2048x16x512
  h_S_ : 0 < S_.numel
  transposes_S2048x16x512_S16x2048x512_1_0_2 : S2048x16x512.Transposes [1, 0, 2] S16x2048x512
  reducesTo_S16x2048x2048_S16x2048_d1 : S16x2048x2048.ReducesTo [1] S16x2048
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  transposes_S16x2048x2048_S16x2048x2048_0_2_1 : S16x2048x2048.Transposes [0, 2, 1] S16x2048x2048
  transposes_S16x2048x512_S2048x16x512_1_0_2 : S16x2048x512.Transposes [1, 0, 2] S2048x16x512
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.Pieces.lean ====
/-
  What one run of the kernel body leaves behind, case by case, as pure terms of what it read.

  The body keeps two accumulators between the grid points of one (batch, query block): `acc` [1024, 512], the weighted
  sum of the key rows seen so far, and `l` [1024, 1], the sum of the weights seen so far. With `q` the query block and
  `k` the current key block:
    * at the first key block it resets both to zero and then adds this block's terms;
    * at every key block it leaves `l + rowsum (exp (q kᵀ))` and `acc + exp (q kᵀ) k`;
    * at the last key block it also stores `acc / l` (of the values just left) into the output block.
  These are the body's payload terms applied to the loaded blocks; the statements below hold for any float semantics.
-/
import proofs.«174311_j62938450756123_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Attention.Pieces

open Cert.KernelIdeal Cert.KernelIdeal.Gen

variable {F : FTy → Type} [FloatOps F]

theorem hz : (![0, 0] : Fin 2 → Nat) = fun _ => 0 := funext fun a => by fin_cases a <;> rfl

/-- A later key block: the weighted-sum accumulator becomes `acc + exp (q kᵀ) k`. -/
theorem acc_B (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : ¬cond0_0 i) (hc1 : ¬cond0_1 i)
    (x0 : Vec F S1024x512 .f32) (x1 : Vec F S512x512 .bf16) (xs0 : Vec F S1024x512 .f32) (xs1 : Vec F S1024x1 .f32) :
    sout0_B_0 c i a3 h3 a4 h4 a5 h5 a6 h6 a7 h7 hc0 hc1 x0 x1 xs0 xs1 = k0_pay6 x0 x1 xs0 := by
  unfold sout0_B_0
  rw [View.read_writes_eq_canon _ _ _ (scover0_B_0 c i a3 h3 a4 h4 a5 h5 a6 h6 a7 h7 hc0 hc1 x0 x1 xs0 xs1)]
  unfold kernelRun0_B
  dsimp only
  rw [View.canon_unit_zero hz]
  simp only [View.readAt_eq_ld, h3.read_unread, h4.read_unread, h6.read_unread, h7.read_unread,
    View.ld_unit_zero (S := S1024x512) hz, View.ld_unit_zero (S := S512x512) hz, View.ld_unit_zero (S := S1024x1) hz]

/-- A later key block: the weight total becomes `l + rowsum (exp (q kᵀ))`. -/
theorem tot_B (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : ¬cond0_0 i) (hc1 : ¬cond0_1 i)
    (x0 : Vec F S1024x512 .f32) (x1 : Vec F S512x512 .bf16) (xs0 : Vec F S1024x512 .f32) (xs1 : Vec F S1024x1 .f32) :
    sout0_B_1 c i a3 h3 a4 h4 a5 h5 a6 h6 a7 h7 hc0 hc1 x0 x1 xs0 xs1 = k0_pay5 x0 x1 xs1 := by
  unfold sout0_B_1
  rw [View.read_writes_eq_canon _ _ _ (scover0_B_1 c i a3 h3 a4 h4 a5 h5 a6 h6 a7 h7 hc0 hc1 x0 x1 xs0 xs1)]
  unfold kernelRun0_B
  dsimp only
  rw [View.canon_unit_zero hz]
  simp only [View.readAt_eq_ld, h3.read_unread, h4.read_unread, h6.read_unread, h7.read_unread,
    View.ld_unit_zero (S := S1024x512) hz, View.ld_unit_zero (S := S512x512) hz, View.ld_unit_zero (S := S1024x1) hz]

/-- The last key block: the accumulator steps as at any later block. -/
theorem acc_C (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : ¬cond0_0 i) (hc1 : cond0_1 i)
    (x0 : Vec F S1024x512 .f32) (x1 : Vec F S512x512 .bf16) (xs0 : Vec F S1024x512 .f32) (xs1 : Vec F S1024x1 .f32) :
    sout0_C_0 c i a3 h3 a4 h4 a5 h5 a6 h6 a7 h7 hc0 hc1 x0 x1 xs0 xs1 = k0_pay6 x0 x1 xs0 := by
  unfold sout0_C_0
  rw [View.read_writes_eq_canon _ _ _ (scover0_C_0 c i a3 h3 a4 h4 a5 h5 a6 h6 a7 h7 hc0 hc1 x0 x1 xs0 xs1)]
  unfold kernelRun0_C
  dsimp only
  sl_unfold_words
  rw [View.canon_unit_zero hz]
  simp only [View.readAt_eq_ld, h3.read_unread, h4.read_unread, h6.read_unread, h7.read_unread,
    View.ld_unit_zero (S := S1024x512) hz, View.ld_unit_zero (S := S512x512) hz, View.ld_unit_zero (S := S1024x1) hz]

/-- The last key block: the weight total steps as at any later block. -/
theorem tot_C (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : ¬cond0_0 i) (hc1 : cond0_1 i)
    (x0 : Vec F S1024x512 .f32) (x1 : Vec F S512x512 .bf16) (xs0 : Vec F S1024x512 .f32) (xs1 : Vec F S1024x1 .f32) :
    sout0_C_1 c i a3 h3 a4 h4 a5 h5 a6 h6 a7 h7 hc0 hc1 x0 x1 xs0 xs1 = k0_pay5 x0 x1 xs1 := by
  unfold sout0_C_1
  rw [View.read_writes_eq_canon _ _ _ (scover0_C_1 c i a3 h3 a4 h4 a5 h5 a6 h6 a7 h7 hc0 hc1 x0 x1 xs0 xs1)]
  unfold kernelRun0_C
  dsimp only
  sl_unfold_words
  rw [View.canon_unit_zero hz]
  simp only [View.readAt_eq_ld, h3.read_unread, h4.read_unread, h6.read_unread, h7.read_unread,
    View.ld_unit_zero (S := S1024x512) hz, View.ld_unit_zero (S := S512x512) hz, View.ld_unit_zero (S := S1024x1) hz]

/-- The last key block: the output block is the quotient of the two accumulators AS JUST LEFT (the body reads both
    back after storing them). -/
theorem out_C (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : ¬cond0_0 i) (hc1 : cond0_1 i)
    (x0 : Vec F S1024x512 .f32) (x1 : Vec F S512x512 .bf16) (xs0 : Vec F S1024x512 .f32) (xs1 : Vec F S1024x1 .f32) :
    out0_C_2 c i a3 h3 a4 h4 a5 h5 a6 h6 a7 h7 hc0 hc1 x0 x1 xs0 xs1 = k0_pay7 (k0_pay6 x0 x1 xs0) (k0_pay5 x0 x1 xs1) := by
  unfold out0_C_2
  rw [View.read_writes_eq_canon _ _ _ (cover0_C_2 c i a3 h3 a4 h4 a5 h5 a6 h6 a7 h7 hc0 hc1 x0 x1 xs0 xs1)]
  unfold kernelRun0_C
  dsimp only
  sl_unfold_words
  rw [View.canon_unit_zero hz, View.readCov_unit_zero (S := S1024x512) _ hz, View.readCov_unit_zero (S := S1024x1) _ hz]
  simp only [View.readAt_eq_ld, h3.read_unread, h4.read_unread, h6.read_unread, h7.read_unread,
    View.ld_unit_zero (S := S1024x512) hz, View.ld_unit_zero (S := S512x512) hz, View.ld_unit_zero (S := S1024x1) hz]

/-- The first key block: the accumulator is reset to zero and then stepped. -/
theorem acc_A (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : cond0_0 i) (hc1 : ¬cond0_1 i)
    (x0 : Vec F S1024x512 .f32) (x1 : Vec F S512x512 .bf16) :
    sout0_A_0 c i a3 h3 a4 h4 a5 h5 a6 h6 a7 h7 hc0 hc1 x0 x1 = k0_pay6 x0 x1 (k0_pay1 (F := F)) := by
  unfold sout0_A_0
  rw [View.read_writes_eq_canon _ _ _ (scover0_A_0 c i a3 h3 a4 h4 a5 h5 a6 h6 a7 h7 hc0 hc1 x0 x1)]
  unfold kernelRun0_A
  dsimp only
  sl_unfold_words
  rw [View.canon_cons_unit_zero (S := S1024x512) hz, View.readCov_unit_zero (S := S1024x512) _ hz]
  simp only [View.readAt_eq_ld, h3.read_unread, h4.read_unread, h6.read_unread, h7.read_unread,
    View.ld_unit_zero (S := S1024x512) hz, View.ld_unit_zero (S := S512x512) hz, View.ld_unit_zero (S := S1024x1) hz]

/-- The first key block: the weight total is reset to zero and then stepped. -/
theorem tot_A (c : Dev nD) (i : grid0.Coords) (a3 : Memref sig .tc .vmem S1024x512 .f32) (h3 : a3.IsWhole)
    (a4 : Memref sig .tc .vmem S512x512 .bf16) (h4 : a4.IsWhole) (a5 : Memref sig .tc .vmem S1024x512 .f32) (h5 : a5.IsWhole)
    (a6 : Memref sig .tc .vmem S1024x512 .f32) (h6 : a6.IsWhole) (a7 : Memref sig .tc .vmem S1024x1 .f32) (h7 : a7.IsWhole)
    (hc0 : cond0_0 i) (hc1 : ¬cond0_1 i)
    (x0 : Vec F S1024x512 .f32) (x1 : Vec F S512x512 .bf16) :
    sout0_A_1 c i a3 h3 a4 h4 a5 h5 a6 h6 a7 h7 hc0 hc1 x0 x1 = k0_pay5 x0 x1 (k0_pay2 (F := F)) := by
  unfold sout0_A_1
  rw [View.read_writes_eq_canon _ _ _ (scover0_A_1 c i a3 h3 a4 h4 a5 h5 a6 h6 a7 h7 hc0 hc1 x0 x1)]
  unfold kernelRun0_A
  dsimp only
  sl_unfold_words
  rw [View.canon_cons_unit_zero (S := S1024x1) hz, View.readCov_unit_zero (S := S1024x1) _ hz]
  simp only [View.readAt_eq_ld, h3.read_unread, h4.read_unread, h6.read_unread, h7.read_unread,
    View.ld_unit_zero (S := S1024x512) hz, View.ld_unit_zero (S := S512x512) hz, View.ld_unit_zero (S := S1024x1) hz]

end Attention.Pieces

end
-- ==== Proof.Payloads.lean ====
/-
  The kernel body's arithmetic, read one element at a time over the extended reals.

  One step of the kernel body holds a block of 1024 query rows q (1024 x 512), a block of 512 key rows k (512 x 512),
  a running denominator l (1024 x 1) and a running numerator acc (1024 x 512). With

      blockWgt r j = exp (sum_h q[r, h] * k[j, h])          the weight of key row j for query row r,

  the values the body stores are, at each index:

      the two initial stores:    0 everywhere (numerator and denominator start at zero);
      the weights:               the exponential of (q times the transpose of k) at (r, j) is blockWgt r j;
      the new denominator:       l[r, 0] + sum_j blockWgt r j                (the row sum, kept as a column);
      the new numerator:         acc[r, h] + sum_j blockWgt r j * k[j, h]     (weights times the key block);
      the final quotient:        a[r, h] / l[r, 0]                            (the column broadcast along the row).

  The narrowing of q and of the weights to the matrix unit's input format is the identity on extended reals, a shape
  cast of a block to its own shape is the identity, and a matrix product accumulated into the zero block is the plain
  sum over the contracted axis. Three layout facts are proved on the way: a vector of length a cast to an a x 1 column
  reads its own entry, an a x 1 column broadcast to a x b reads the row's entry, and this contraction's operand
  indices at output (r, c) and contraction position k are (r, k) and (k, c).
-/
import proofs.«174311_j62938450756123_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Attention.Pay

open Cert.KernelIdeal Cert.KernelIdeal.Gen Idealize.ShloMosaic Idealize.ShloMosaic.ValueIdx

/-! ## Two layout operations at coordinates -/

section Layout
variable {α : Type}

/-- A vector of length a cast to an a x 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column broadcast to a x b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contraction: rows of the left operand against rows-by-columns of the right -/

/-- The body's one contraction: axis 1 of a 1024 x 512 block against axis 0 of a 512 x 512 block. -/
abbrev D : DotDims S1024x512 S512x512 S1024x512 := dot_S1024x512_S512x512_S1024x512_1_0_0_1_n_n

theorem lhs_0 (i : S1024x512.Idx) (q : D.contr.Idx) : (D.lhsIdx i q 0).val = (i 0).val := by
  unfold DotDims.lhsIdx
  rw [dif_neg (show ¬(0 : Fin S1024x512.rank) ∈ D.lhsBatch by decide),
    dif_pos (show (0 : Fin S1024x512.rank) ∈ D.lhsNonContracting by decide)]
  rfl
theorem lhs_1 (i : S1024x512.Idx) (q : D.contr.Idx) : (D.lhsIdx i q 1).val = (q ⟨0, by decide⟩).val :=
  D.lhsIdx_val_of_single rfl i q
theorem rhs_0 (i : S1024x512.Idx) (q : D.contr.Idx) : (D.rhsIdx i q 0).val = (q ⟨0, by decide⟩).val :=
  D.rhsIdx_val_of_single rfl i q
theorem rhs_1 (i : S1024x512.Idx) (q : D.contr.Idx) : (D.rhsIdx i q 1).val = (i 1).val := by
  unfold DotDims.rhsIdx
  rw [dif_neg (show ¬(1 : Fin S512x512.rank) ∈ D.rhsBatch by decide),
    dif_pos (show (1 : Fin S512x512.rank) ∈ D.rhsNonContracting by decide)]
  rfl

/-- The matrix product accumulated into the zero block, at (r, c): the sum over the 512 contracted positions. -/
theorem matmul_at (lhs : FVec Ideal S1024x512 .bf16) (rhs : FVec Ideal S512x512 .bf16) (r : Fin 1024) (c : Fin 512) :
    matmul D none lhs rhs (constant (F := Ideal) S1024x512 .f32 0x00000000#32) (ix2 r c)
      = ∑ k : Fin 512, lhs (ix2 r k) * rhs (ix2 k c) := by
  show FloatOps.matmul D none lhs rhs (constant (F := Ideal) S1024x512 .f32 0x00000000#32) (ix2 r c) = _
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r c) ((contrEquiv1 D 512 rfl rfl).symm k) = ix2 r k := funext fun a => Fin.ext (by
    match a with
    | ⟨0, _⟩ => exact lhs_0 _ _
    | ⟨1, _⟩ => exact (lhs_1 _ _).trans hk)
  have er : D.rhsIdx (ix2 r c) ((contrEquiv1 D 512 rfl rfl).symm k) = ix2 k c := funext fun a => Fin.ext (by
    match a with
    | ⟨0, _⟩ => exact (rhs_0 _ _).trans hk
    | ⟨1, _⟩ => exact rhs_1 _ _)
  rw [el, er]

/-- The sum along the rows of a 1024 x 512 block, at row r. -/
theorem rowsum_at (v : FVec Ideal S1024x512 .f32) (r : Fin 1024) :
    multiReduction (F := Ideal) .add [1] S1024 v 0x00000000#32 reduces_S1024x512_S1024 (.inl rfl) rfl (ix1 r)
      = ∑ j : Fin 512, v (ix2 r j) := by
  refine (Ideal.multiReduction_add_single v 0x00000000#32 reduces_S1024x512_S1024 (.inl rfl) rfl (ix1 r)).trans ?_
  show ∑ k : Fin 512, v (reduces_S1024x512_S1024.lift (ix1 r) k) = _
  refine Finset.sum_congr rfl fun k _ => ?_
  exact congrArg v (funext fun a => Fin.ext (by match a with | ⟨0, _⟩ => rfl | ⟨1, _⟩ => rfl))

/-! ## The payloads -/

section Payloads
variable (x0 : Vec Ideal S1024x512 .f32) (x1 : Vec Ideal S512x512 .bf16)

/-- The weight of key row j for query row r within one (query block, key block) pair. -/
def blockWgt (r : Fin 1024) (j : Fin 512) : EReal := Ideal.exp (∑ h : Fin 512, x0 (ix2 r h) * x1 (ix2 j h))

/-- The numerator starts at zero. -/
theorem pay1_at (i : S1024x512.Idx) : k0_pay1 (F := Ideal) i = 0 := by
  show shapeCast S1024x512 (broadcast S1024x512 (Scalar.ofBits (F := Ideal) .f32 0x00000000#32)) shapeCasts_S1024x512_S1024x512 i = 0
  rw [shapeCast_self]
  exact Ideal.ofBits_zero_f32

/-- The denominator starts at zero. -/
theorem pay2_at (i : S1024x1.Idx) : k0_pay2 (F := Ideal) i = 0 := by
  show shapeCast S1024x1 (broadcast S1024x1 (Scalar.ofBits (F := Ideal) .f32 0x00000000#32)) shapeCasts_S1024x1_S1024x1 i = 0
  rw [shapeCast_self]
  exact Ideal.ofBits_zero_f32

/-- The weights: the exponential of the query block times the transposed key block. -/
theorem pay4_at (r : Fin 1024) (j : Fin 512) : k0_pay4 (F := Ideal) x0 x1 (ix2 r j) = blockWgt x0 x1 r j := by
  show Ideal.exp (matmul D none (truncf .bf16 (shapeCast S1024x512 x0 shapeCasts_S1024x512_S1024x512) bitsLt_bf16_f32)
    (transpose S512x512 [1, 0] (shapeCast S512x512 x1 shapeCasts_S512x512_S512x512) transposes_S512x512_p1_0_S512x512)
    (constant (F := Ideal) S1024x512 .f32 0x00000000#32) (ix2 r j)) = _
  rw [matmul_at]
  unfold blockWgt
  refine congrArg Ideal.exp (Finset.sum_congr rfl fun h _ => ?_)
  rw [truncf_apply, shapeCast_self, transpose_ix2_apply, shapeCast_self]

/-- The new denominator: the old one plus the row sum of the weights. -/
theorem pay5_at (l : Vec Ideal S1024x1 .f32) (r : Fin 1024) (z : Fin 1) :
    k0_pay5 (F := Ideal) x0 x1 l (ix2 r z) = l (ix2 r z) + ∑ j : Fin 512, blockWgt x0 x1 r j := by
  show shapeCast S1024x1 (addf l (shapeCast S1024x1
      (multiReduction (F := Ideal) .add [1] S1024 (k0_pay4 (F := Ideal) x0 x1) 0x00000000#32 reduces_S1024x512_S1024 (.inl rfl) rfl)
      shapeCasts_S1024_S1024x1)) shapeCasts_S1024x1_S1024x1 (ix2 r z) = _
  rw [shapeCast_self, addf_apply, shapeCast_a_a1_apply, rowsum_at]
  refine congrArg (l (ix2 r z) + ·) (Finset.sum_congr rfl fun j _ => ?_)
  exact pay4_at x0 x1 r j

/-- The new numerator: the old one plus the weights times the key block. -/
theorem pay6_at (acc : Vec Ideal S1024x512 .f32) (r : Fin 1024) (h : Fin 512) :
    k0_pay6 (F := Ideal) x0 x1 acc (ix2 r h) = acc (ix2 r h) + ∑ j : Fin 512, blockWgt x0 x1 r j * x1 (ix2 j h) := by
  show shapeCast S1024x512 (addf acc (matmul D none (truncf .bf16 (k0_pay4 (F := Ideal) x0 x1) bitsLt_bf16_f32)
      (shapeCast S512x512 x1 shapeCasts_S512x512_S512x512) (constant (F := Ideal) S1024x512 .f32 0x00000000#32)))
      shapeCasts_S1024x512_S1024x512 (ix2 r h) = _
  rw [shapeCast_self, addf_apply, matmul_at]
  refine congrArg (acc (ix2 r h) + ·) (Finset.sum_congr rfl fun j _ => ?_)
  rw [truncf_apply, pay4_at, shapeCast_self]

end Payloads

/-- The final quotient: the numerator divided by the row's denominator. -/
theorem pay7_at (a : Vec Ideal S1024x512 .f32) (l : Vec Ideal S1024x1 .f32) (r : Fin 1024) (h : Fin 512) :
    k0_pay7 (F := Ideal) a l (ix2 r h) = Ideal.div (a (ix2 r h)) (l (ix2 r (0 : Fin 1))) := by
  show divf (F := Ideal) (φ := .f32) a (broadcastTo S1024x512 l broadcasts_S1024x1_S1024x512) (ix2 r h) = _
  rw [divf_apply, broadcastTo_a1_ab_apply]

end Attention.Pay

end
-- ==== Proof.Spec.lean ====
/-
  The attention context as ONE function of the two float argument arrays, index by index.

  Arguments: the encoder outputs `E` of shape [2048, 16, 1024] (source position `s`, batch `b`, feature; the two
  halves of the feature axis are the two directions) and the decoder outputs `D` of shape [2048, 16, 512] (target
  position `t`, batch `b`, feature `h`).

    enc s b h     = E[s, b, h] + E[s, b, 512 + h]                       the two directions summed
    score b s t   = ∑ h, D[t, b, h] * enc s b h                          the dot-product score
    wgt b s t     = exp (score b s t)                                    the unnormalised softmax weight
    total b t     = ∑ s, wgt b s t                                       the softmax denominator, over source positions

  Two arrangements of the context at [t, b, h]:

    blockForm     = (∑ s, wgt b s t * enc s b h) / total b t             weighted sum first, ONE division at the end
    softmaxForm   = ∑ s, (wgt b s t / total b t) * enc s b h             each weight normalised first

  Both are stated over the extended reals with the library's operations (`Ideal.exp`, `Ideal.div`); they agree when
  every entry of `E` and `D` is a real number (the module joining them proves that), not at infinite entries.
-/
import Idealize.ShloMosaic.PureOps.Ideal
import Idealize.ShloMosaic.Lib.ValueIdx

noncomputable section

namespace Attention

open Idealize.ShloMosaic Idealize.ShloMosaic.ValueIdx

/-- The encoder outputs' shape: [source position, batch, 2 × feature]. -/
abbrev SE : Shape := ⟨3, ![2048, 16, 1024]⟩
/-- The decoder outputs' shape, and the result's: [target position, batch, feature]. -/
abbrev SD : Shape := ⟨3, ![2048, 16, 512]⟩

/-- Feature `h` of the forward direction: column `h` of the 1024. -/
def lo (h : Fin 512) : Fin 1024 := ⟨h.val, by have := h.isLt; omega⟩
/-- Feature `h` of the backward direction: column `512 + h` of the 1024. -/
def hi (h : Fin 512) : Fin 1024 := ⟨512 + h.val, by have := h.isLt; omega⟩

/-- The bidirectional encoder output: the two directions' features added. -/
def enc (E : SE.Idx → EReal) (s : Fin 2048) (b : Fin 16) (h : Fin 512) : EReal :=
  E (ix3 s b (lo h)) + E (ix3 s b (hi h))

/-- The score of source position `s` for target position `t` in batch `b`: the dot product over the 512 features. -/
def score (E : SE.Idx → EReal) (D : SD.Idx → EReal) (b : Fin 16) (s t : Fin 2048) : EReal :=
  ∑ h : Fin 512, D (ix3 t b h) * enc E s b h

/-- The unnormalised softmax weight: the exponential of the score (no maximum subtracted). -/
def wgt (E : SE.Idx → EReal) (D : SD.Idx → EReal) (b : Fin 16) (s t : Fin 2048) : EReal :=
  Ideal.exp (score E D b s t)

/-- The softmax denominator: the weights summed over all 2048 source positions. -/
def total (E : SE.Idx → EReal) (D : SD.Idx → EReal) (b : Fin 16) (t : Fin 2048) : EReal :=
  ∑ s : Fin 2048, wgt E D b s t

/-- The context with the weighted sum taken first and divided ONCE by the denominator. -/
def blockForm (E : SE.Idx → EReal) (D : SD.Idx → EReal) : SD.Idx → EReal := fun i =>
  Ideal.div (∑ s : Fin 2048, wgt E D (i 1) s (i 0) * enc E s (i 1) (i 2)) (total E D (i 1) (i 0))

/-- The context with each weight normalised first, then the weighted sum. -/
def softmaxForm (E : SE.Idx → EReal) (D : SD.Idx → EReal) : SD.Idx → EReal := fun i =>
  ∑ s : Fin 2048, Ideal.div (wgt E D (i 1) s (i 0)) (total E D (i 1) (i 0)) * enc E s (i 1) (i 2)

end Attention

end
-- ==== Proof.BlockTerms.lean ====
/-
  The grid of the blocked computation, and what one grid point adds.

  The 128 grid points are numbered `n = 8·b + 4·qb + kb`: batch `b` (16 of them), query block `qb` (2 blocks of 1024
  target positions) and key block `kb` (4 blocks of 512 source positions), the key block moving fastest. Everything
  below is a TOTAL function of the natural number `n` (reduced modulo the extents), so that no statement about a
  point carries a bound.

    batchOf n     = (n / 8) mod 16        the batch of point n
    qrow n r      = 1024·((n/4) mod 2) + r   the target position of row r of the point's query block
    krow n j      = 512·(n mod 4) + j        the source position of row j of the point's key block

  At point `n` the body adds, to the two accumulators it keeps for the point's (batch, query block), the terms of the
  point's 512 source positions:
    accTerm n (r, h) = ∑ j, wgt (batchOf n) (krow n j) (qrow n r) * enc (krow n j) (batchOf n) h
    totTerm n (r, _) = ∑ j, wgt (batchOf n) (krow n j) (qrow n r)
-/
import proofs.«174311_j62938450756123_2_alg».proof.Proof.Spec

noncomputable section

namespace Attention

open Idealize.ShloMosaic Idealize.ShloMosaic.ValueIdx

/-- The batch of grid point `n`. -/
def batchOf (n : ℕ) : Fin 16 := ⟨(n / 8) % 16, Nat.mod_lt _ (by decide)⟩

/-- The target position of row `r` of point `n`'s query block. -/
def qrow (n : ℕ) (r : Fin 1024) : Fin 2048 :=
  ⟨1024 * ((n / 4) % 2) + r.val, by have := r.isLt; have : (n / 4) % 2 < 2 := Nat.mod_lt _ (by decide); omega⟩

/-- The source position of row `j` of point `n`'s key block. -/
def krow (n : ℕ) (j : Fin 512) : Fin 2048 :=
  ⟨512 * (n % 4) + j.val, by have := j.isLt; have : n % 4 < 4 := Nat.mod_lt _ (by decide); omega⟩

/-- What point `n` adds to the weighted-sum accumulator at row `r`, feature `h` of its query block. -/
def accTerm (E : SE.Idx → EReal) (D : SD.Idx → EReal) (n : ℕ) (r : Fin 1024) (h : Fin 512) : EReal :=
  ∑ j : Fin 512, wgt E D (batchOf n) (krow n j) (qrow n r) * enc E (krow n j) (batchOf n) h

/-- What point `n` adds to the weight total at row `r` of its query block. -/
def totTerm (E : SE.Idx → EReal) (D : SD.Idx → EReal) (n : ℕ) (r : Fin 1024) : EReal :=
  ∑ j : Fin 512, wgt E D (batchOf n) (krow n j) (qrow n r)

end Attention

end
-- ==== Proof.Blocks.lean ====
/-
  The two input blocks of a grid point, entry by entry, in terms of the two float argument arrays.

  Before the blocked computation the decoder array D of shape [2048, 16, 512] is laid out row-major as a
  [2048, 8192] array: column 512·b + h of row t is D[t, b, h]. The encoder array E of shape [2048, 16, 1024]
  is first cut into its two halves along the last axis, the halves are added (E[s, b, h] + E[s, b, 512 + h]),
  the format is changed (the identity on extended reals), and the result is laid out row-major as a [2048, 8192]
  array in the same way: column 512·b + h of row s is E[s, b, h] + E[s, b, 512 + h].

  Grid point n = 8·b + 4·qb + kb reads
    the query block: rows 1024·qb … 1024·qb + 1023 and columns 512·b … 512·b + 511 of the first array, so its
      entry (r, h) is D[1024·qb + r, b, h];
    the key block: rows 512·kb … 512·kb + 511 and columns 512·b … 512·b + 511 of the second, so its entry (j, h)
      is E[512·kb + j, b, h] + E[512·kb + j, b, 512 + h].
  A block's coordinate in the array is always (block index) × (block size) + (coordinate inside the block); the block
  indices are qb = (n / 4) mod 2, kb = n mod 4, b = (n / 8) mod 16, checked once over the 128 points.
-/
import proofs.«174311_j62938450756123_2_alg».proof.Proof.Gen.KernelIdeal.Frame
import proofs.«174311_j62938450756123_2_alg».proof.Proof.BlockTerms
import Idealize.ShloMosaic.Lib.Pipeline.Value
import Idealize.ShloMosaic.Lib.ValueIdx
import Idealize.ShloMosaic.Lib.StableHlo.Run
import Idealize.ShloMosaic.Lib.Tactic

noncomputable section

namespace Attention.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## The block indices of a grid point -/

/-- The query window's block at point n: block row (n / 4) mod 2, block column (n / 8) mod 16. -/
theorem idx0 : ∀ t : Fin cfg0.N, win0_0.index t 0 = (t.val / 4) % 2 ∧ win0_0.index t 1 = (t.val / 8) % 16 :=
  (by decide +kernel : ∀ t : Fin grid0.N, _)

/-- The key window's block at point n: block row n mod 4, block column (n / 8) mod 16. -/
theorem idx1 : ∀ t : Fin cfg0.N, win0_1.index t 0 = t.val % 4 ∧ win0_1.index t 1 = (t.val / 8) % 16 :=
  (by decide +kernel : ∀ t : Fin grid0.N, _)

/-! ## The two arrays the windows read -/

/-- The first window's array is the decoder array laid out row-major as [2048, 8192]. -/
theorem V_query : (V m c main_v5 : S2048x8192.Idx → EReal)
    = shapeCast S2048x8192 (m ((c.tc : Thread nD τ).loc main_arg2)) Facts₀.shapeCasts_S2048x16x512_S2048x8192 := by
  show StableHlo.after hostOps0 (fun b => m (c, b)) (Proc.devRef .tc main_v5) = _
  after_results
  rfl

/-- The second window's array is the sum of the encoder array's two halves laid out row-major as [2048, 8192]. -/
theorem V_key : (V m c main_v4 : S2048x8192.Idx → EReal)
    = (shapeCast S2048x8192
        (truncf (F := Ideal) .bf16
          (addf (F := Ideal)
            (extractStridedSlice S2048x16x512 ![0, 0, 0] (m ((c.tc : Thread nD τ).loc main_arg1)) Facts₀.slices_S2048x16x1024_S2048x16x512_0_0_0)
            (extractStridedSlice S2048x16x512 ![0, 0, 512] (m ((c.tc : Thread nD τ).loc main_arg1)) Facts₀.slices_S2048x16x1024_S2048x16x512_0_0_512))
          Facts₀.bitsLt_bf16_f32)
        Facts₀.shapeCasts_S2048x16x512_S2048x8192 : S2048x8192.Idx → EReal) := by
  show StableHlo.after hostOps0 (fun b => m (c, b)) (Proc.devRef .tc main_v4) = _
  after_results
  rfl

/-! ## Reading the row-major layout and the two halves at an index -/

/-- Row-major [2048, 16, 512] → [2048, 8192]: the entry at row s, column 512·b + h is the entry (s, b, h). -/
theorem reshape_at (x : S2048x16x512.Idx → EReal) (hc : S2048x16x512.ShapeCasts S2048x8192) (i : S2048x8192.Idx)
    (s : Fin 2048) (b : Fin 16) (h : Fin 512) (h0 : (i 0).val = s.val) (h1 : (i 1).val = 512 * b.val + h.val) :
    shapeCast S2048x8192 x hc i = x (ix3 s b h) := by
  refine shapeCast_apply x hc i (ix3 s b h) ?_
  rw [Shape.rowMajor_val_three, Shape.rowMajor_val_two]
  show (s.val * 16 + b.val) * 512 + h.val = (i 0).val * 8192 + (i 1).val
  have := h.isLt; have := b.isLt
  omega

/-- The sum of the two halves of the last axis, at (s, b, h): E[s, b, h] + E[s, b, 512 + h]. -/
theorem halves_at (E : S2048x16x1024.Idx → EReal)
    (hs0 : S2048x16x1024.Slices ![0, 0, 0] S2048x16x512) (hs1 : S2048x16x1024.Slices ![0, 0, 512] S2048x16x512)
    (hb : FTy.bits .bf16 < FTy.bits .f32) (s : Fin 2048) (b : Fin 16) (h : Fin 512) :
    (truncf (F := Ideal) .bf16 (addf (extractStridedSlice S2048x16x512 ![0, 0, 0] E hs0)
        (extractStridedSlice S2048x16x512 ![0, 0, 512] E hs1)) hb : S2048x16x512.Idx → EReal) (ix3 s b h)
      = Attention.enc E s b h := by
  show extractStridedSlice S2048x16x512 ![0, 0, 0] E hs0 (ix3 s b h)
      + extractStridedSlice S2048x16x512 ![0, 0, 512] E hs1 (ix3 s b h) = _
  rw [extractStridedSlice_apply ![0, 0, 0] E hs0 (ix3 s b h) (ix3 s b (Attention.lo h))
        (fun a => by match a with
          | ⟨0, _⟩ => show s.val = 0 + s.val; omega
          | ⟨1, _⟩ => show b.val = 0 + b.val; omega
          | ⟨2, _⟩ => show h.val = 0 + h.val; omega),
      extractStridedSlice_apply ![0, 0, 512] E hs1 (ix3 s b h) (ix3 s b (Attention.hi h))
        (fun a => by match a with
          | ⟨0, _⟩ => show s.val = 0 + s.val; omega
          | ⟨1, _⟩ => show b.val = 0 + b.val; omega
          | ⟨2, _⟩ => show 512 + h.val = 512 + h.val; rfl)]
  rfl

/-! ## The two blocks of a grid point -/

/-- The query block of point n at (r, h) is D[1024·((n/4) mod 2) + r, (n/8) mod 16, h]. -/
theorem qblk_at (t : Fin cfg0.N) (r : Fin 1024) (h : Fin 512) :
    (iblk m c 0 t : Vec Ideal S1024x512 .f32) (ix2 r h)
      = m ((c.tc : Thread nD τ).loc main_arg2) (ix3 (Attention.qrow t.val r) (Attention.batchOf t.val) h) := by
  show (V m c main_v5 : S2048x8192.Idx → EReal) (((cfg0.win 0).blk t).view.emb (ix2 r h)) = _
  refine (congrFun (V_query m c) _).trans ?_
  refine reshape_at _ _ _ (Attention.qrow t.val r) (Attention.batchOf t.val) h ?_ ?_
  · show win0_0.index t (0 : Fin 2) * 1024 + 1 * r.val = 1024 * ((t.val / 4) % 2) + r.val
    rw [(idx0 t).1]; omega
  · show win0_0.index t (1 : Fin 2) * 512 + 1 * h.val = 512 * ((t.val / 8) % 16) + h.val
    rw [(idx0 t).2]; omega

/-- The key block of point n at (j, h) is E[512·(n mod 4) + j, (n/8) mod 16, h] + E[512·(n mod 4) + j, (n/8) mod 16, 512 + h]. -/
theorem kblk_at (t : Fin cfg0.N) (j h : Fin 512) :
    (iblk m c 1 t : Vec Ideal S512x512 .bf16) (ix2 j h)
      = Attention.enc (m ((c.tc : Thread nD τ).loc main_arg1)) (Attention.krow t.val j) (Attention.batchOf t.val) h := by
  show (V m c main_v4 : S2048x8192.Idx → EReal) (((cfg0.win 1).blk t).view.emb (ix2 j h)) = _
  refine (congrFun (V_key m c) _).trans ?_
  refine (reshape_at _ _ _ (Attention.krow t.val j) (Attention.batchOf t.val) h ?_ ?_).trans ?_
  · show win0_1.index t (0 : Fin 2) * 512 + 1 * j.val = 512 * (t.val % 4) + j.val
    rw [(idx1 t).1]; omega
  · show win0_1.index t (1 : Fin 2) * 512 + 1 * h.val = 512 * ((t.val / 8) % 16) + h.val
    rw [(idx1 t).2]; omega
  · exact halves_at _ _ _ _ _ _ _

end Attention.Blocks

end
-- ==== Proof.LibSumBlocks.lean ====
/-
  A sum over m·n consecutive indices, taken block by block.

  The indices below m·n are the numbers n·h + d with h below m and d below n, each exactly once; so a sum over them is
  the sum over the m blocks h of the sums over each block's n entries d.  For eight blocks the outer sum is written out
  as the eight block sums added left to right.  The values may lie in any additive commutative monoid.
-/
import Mathlib.Algebra.BigOperators.Fin
import Mathlib.Logic.Equiv.Fin.Basic

namespace Idealize.ShloMosaic.SumBlocks

open scoped BigOperators

/-- Entry d of block h lies below m·n. -/
theorem block_lt {m n : ℕ} (h : Fin m) (d : Fin n) : n * h.val + d.val < m * n :=
  calc n * h.val + d.val < n * h.val + n := Nat.add_lt_add_left d.isLt _
    _ = n * (h.val + 1) := (Nat.mul_succ n h.val).symm
    _ ≤ n * m := Nat.mul_le_mul_left n h.isLt
    _ = m * n := Nat.mul_comm n m

/-- A sum over the indices below m·n is the sum over the blocks of the blocks' sums. -/
theorem sum_eq_sum_blocks {M : Type*} [AddCommMonoid M] (m n : ℕ) (f : Fin (m * n) → M) :
    ∑ j, f j = ∑ h : Fin m, ∑ d : Fin n, f ⟨n * h.val + d.val, block_lt h d⟩ := by
  rw [← Equiv.sum_comp finProdFinEquiv f, Fintype.sum_prod_type]
  refine Finset.sum_congr rfl fun h _ => Finset.sum_congr rfl fun d _ => ?_
  exact congrArg f (Fin.ext (Nat.add_comm _ _))

/-- Eight blocks, added left to right. -/
theorem sum_eq_eight_blocks {M : Type*} [AddCommMonoid M] (n : ℕ) (f : Fin (8 * n) → M) :
    ∑ j, f j
      = (∑ d : Fin n, f ⟨n * (0 : Fin 8).val + d.val, block_lt 0 d⟩)
        + (∑ d : Fin n, f ⟨n * (1 : Fin 8).val + d.val, block_lt 1 d⟩)
        + (∑ d : Fin n, f ⟨n * (2 : Fin 8).val + d.val, block_lt 2 d⟩)
        + (∑ d : Fin n, f ⟨n * (3 : Fin 8).val + d.val, block_lt 3 d⟩)
        + (∑ d : Fin n, f ⟨n * (4 : Fin 8).val + d.val, block_lt 4 d⟩)
        + (∑ d : Fin n, f ⟨n * (5 : Fin 8).val + d.val, block_lt 5 d⟩)
        + (∑ d : Fin n, f ⟨n * (6 : Fin 8).val + d.val, block_lt 6 d⟩)
        + (∑ d : Fin n, f ⟨n * (7 : Fin 8).val + d.val, block_lt 7 d⟩) := by
  rw [sum_eq_sum_blocks 8 n f, Fin.sum_univ_eight]

end Idealize.ShloMosaic.SumBlocks
-- ==== Proof.BlockSums.lean ====
/-
  Four consecutive grid points' block terms, added up, are the sums over all 2048 source positions.

  The grid points are numbered `n = 8·b + 4·qb + kb` (batch, query block, key block; the key block moving
  fastest).  The four points `4·(t/4) + s`, `s = 0, 1, 2, 3`, are the group of `t`: they share `t`'s batch and
  query block (the quotients `n / 8` and `n / 4` do not see `s < 4`), and their key blocks are `s` itself, so row
  `j` of the key block of the `s`-th point is source position `512·s + j`.

  Every source position below 2048 = 4·512 is `512·s + j` for exactly one pair `s < 4`, `j < 512`.  Hence a sum over
  the four points of the points' sums over their 512 rows is a sum over all 2048 source positions:
      ∑ s < 4, ∑ j < 512, g (512·s + j) = ∑ x < 2048, g x.
  With `g x = wgt b x q * enc x b h` this says the four accumulator terms add up to the numerator of the block
  form, and with `g x = wgt b x q` that the four total terms add up to the softmax denominator.  An accumulator
  that starts at zero and receives the four terms therefore ends at these sums, and the quotient of the two is
  the block form at target position `q = qrow t r`, batch `b = batchOf t`, feature `h`.

  Only regrouping of a finite sum is used (addition in the extended reals is commutative and associative, and
  `0 + x = x`), so nothing here needs the entries to be finite.
-/
import proofs.«174311_j62938450756123_2_alg».proof.Proof.BlockTerms
import proofs.«174311_j62938450756123_2_alg».proof.Proof.LibSumBlocks
import Idealize.ShloMosaic.PureOps.Ideal

noncomputable section

namespace Attention

open Idealize.ShloMosaic Idealize.ShloMosaic.ValueIdx

/-! ### The four points of a group share batch and query block, and enumerate the key blocks -/

/-- The points of `t`'s group have `t`'s batch. -/
theorem batchOf_group (t : ℕ) (s : ℕ) (hs : s < 4) : batchOf (4 * (t / 4) + s) = batchOf t := by
  apply Fin.ext
  show (4 * (t / 4) + s) / 8 % 16 = t / 8 % 16
  omega

/-- The points of `t`'s group have `t`'s query block. -/
theorem qrow_group (t s : ℕ) (hs : s < 4) (r : Fin 1024) : qrow (4 * (t / 4) + s) r = qrow t r := by
  apply Fin.ext
  show 1024 * ((4 * (t / 4) + s) / 4 % 2) + r.val = 1024 * (t / 4 % 2) + r.val
  omega

/-- The `s`-th point of a group has key block `s`: its row `j` is source position `512·s + j`. -/
theorem krow_group (t s : ℕ) (hs : s < 4) (j : Fin 512) :
    (krow (4 * (t / 4) + s) j).val = 512 * s + j.val := by
  show 512 * ((4 * (t / 4) + s) % 4) + j.val = 512 * s + j.val
  omega

/-! ### Regrouping a sum over the 2048 source positions by key block -/

/-- The four key blocks of a group, row by row, run through every source position exactly once. -/
theorem sum_group_blocks {M : Type*} [AddCommMonoid M] (t : ℕ) (g : Fin 2048 → M) :
    ∑ s ∈ Finset.range 4, ∑ j : Fin 512, g (krow (4 * (t / 4) + s) j) = ∑ x : Fin 2048, g x := by
  rw [Finset.sum_range]
  refine Eq.trans ?_ (SumBlocks.sum_eq_sum_blocks 4 512 (fun x : Fin (4 * 512) => g x)).symm
  refine Finset.sum_congr rfl fun s _ => Finset.sum_congr rfl fun j _ => ?_
  exact congrArg g (Fin.ext (krow_group t s.val s.isLt j))

/-- The four accumulator terms of a group add up to the weighted sum over all source positions. -/
theorem acc_blocks (E : SE.Idx → EReal) (D : SD.Idx → EReal) (t : ℕ) (r : Fin 1024) (h : Fin 512) :
    ∑ s ∈ Finset.range 4, accTerm E D (4 * (t / 4) + s) r h
      = ∑ x : Fin 2048, wgt E D (batchOf t) x (qrow t r) * enc E x (batchOf t) h := by
  rw [← sum_group_blocks t (fun x => wgt E D (batchOf t) x (qrow t r) * enc E x (batchOf t) h)]
  refine Finset.sum_congr rfl fun s hs => ?_
  have hs4 : s < 4 := Finset.mem_range.mp hs
  simp only [accTerm, batchOf_group t s hs4, qrow_group t s hs4 r]

/-- The four total terms of a group add up to the softmax denominator. -/
theorem tot_blocks (E : SE.Idx → EReal) (D : SD.Idx → EReal) (t : ℕ) (r : Fin 1024) :
    ∑ s ∈ Finset.range 4, totTerm E D (4 * (t / 4) + s) r = total E D (batchOf t) (qrow t r) := by
  rw [total, ← sum_group_blocks t (fun x => wgt E D (batchOf t) x (qrow t r))]
  refine Finset.sum_congr rfl fun s hs => ?_
  have hs4 : s < 4 := Finset.mem_range.mp hs
  simp only [totTerm, batchOf_group t s hs4, qrow_group t s hs4 r]

/-- Accumulators started at zero and fed the four terms of a group, then divided: the block form at the
    group's batch, at row `r` of its query block, at feature `h`. -/
theorem block_value (E : SE.Idx → EReal) (D : SD.Idx → EReal) (t : ℕ) (r : Fin 1024) (h : Fin 512) :
    Ideal.div ((0 : EReal) + ∑ s ∈ Finset.range 4, accTerm E D (4 * (t / 4) + s) r h)
        ((0 : EReal) + ∑ s ∈ Finset.range 4, totTerm E D (4 * (t / 4) + s) r)
      = blockForm E D (ix3 (qrow t r) (batchOf t) h) := by
  rw [zero_add, zero_add, acc_blocks, tot_blocks]
  rfl

end Attention

end
-- ==== Proof.Accumulate.lean ====
/-
  What the two carried accumulators and the output block hold after each grid point.

  Within one (batch, query block) the four key blocks are visited at four consecutive grid points `4g, 4g+1, 4g+2, 4g+3`.
  At the first the accumulators are reset to zero and the first block's terms added; at each later one the point's terms
  are added to what the point before left. So after point `t` the weighted-sum accumulator holds, at (r, h),
      0 + ∑ s ≤ t mod 4, accTerm (4·(t/4) + s) r h
  and the weight total `0 + ∑ s ≤ t mod 4, totTerm (4·(t/4) + s) r`: a fold over the run of points, never an enumeration
  of the grid. At the last point of a run (t mod 4 = 3) the output block is the quotient of the two, which is the
  one-division form of the context at target position `qrow t r`, batch `batchOf t`, feature `h`.
-/
import proofs.«174311_j62938450756123_2_alg».proof.Proof.Gen.KernelIdeal.Frame
import proofs.«174311_j62938450756123_2_alg».proof.Proof.Pieces
import proofs.«174311_j62938450756123_2_alg».proof.Proof.Payloads
import proofs.«174311_j62938450756123_2_alg».proof.Proof.Blocks
import proofs.«174311_j62938450756123_2_alg».proof.Proof.BlockTerms
import proofs.«174311_j62938450756123_2_alg».proof.Proof.BlockSums
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem

namespace Attention.Accumulate

open Cert.KernelIdeal Cert.KernelIdeal.Gen

variable (m : (ℓ : Loc nD τ sig) → Buf (Elt Ideal) ℓ) (c : Dev nD)

/-- The encoder argument array, as launched. -/
abbrev EA : SE.Idx → EReal := m ((c.tc : Thread nD τ).loc main_arg1)
/-- The decoder argument array, as launched. -/
abbrev DA : SD.Idx → EReal := m ((c.tc : Thread nD τ).loc main_arg2)

/-- The query block the body loads at point `n`. -/
def qb (n : ℕ) (h : n < cfg0.N) : Vec Ideal S1024x512 .f32 := iblk m c 0 ⟨n, h⟩
/-- The key block the body loads at point `n`. -/
def kb (n : ℕ) (h : n < cfg0.N) : Vec Ideal S512x512 .bf16 := iblk m c 1 ⟨n, h⟩

theorem qb_at (n : ℕ) (h : n < cfg0.N) (r : Fin 1024) (hh : Fin 512) :
    qb m c n h (ix2 r hh) = DA m c (ix3 (qrow n r) (batchOf n) hh) := Blocks.qblk_at m c ⟨n, h⟩ r hh

theorem kb_at (n : ℕ) (h : n < cfg0.N) (j hh : Fin 512) :
    kb m c n h (ix2 j hh) = enc (EA m c) (krow n j) (batchOf n) hh := Blocks.kblk_at m c ⟨n, h⟩ j hh

/-- Within a point's (query block, key block) pair the weight of key row `j` for query row `r` is the softmax weight
    of source position `krow n j` for target position `qrow n r`. -/
theorem blockWgt_eq (n : ℕ) (h : n < cfg0.N) (r : Fin 1024) (j : Fin 512) :
    Pay.blockWgt (qb m c n h) (kb m c n h) r j = wgt (EA m c) (DA m c) (batchOf n) (krow n j) (qrow n r) := by
  unfold Pay.blockWgt wgt score
  exact congrArg Ideal.exp (Finset.sum_congr rfl fun hh _ => by rw [qb_at, kb_at])

/-- One point's step of the weighted-sum accumulator. -/
def accStep (n : ℕ) (h : n < cfg0.N) (prev : Vec Ideal S1024x512 .f32) : Vec Ideal S1024x512 .f32 :=
  k0_pay6 (F := Ideal) (qb m c n h) (kb m c n h) prev
/-- One point's step of the weight total. -/
def totStep (n : ℕ) (h : n < cfg0.N) (prev : Vec Ideal S1024x1 .f32) : Vec Ideal S1024x1 .f32 :=
  k0_pay5 (F := Ideal) (qb m c n h) (kb m c n h) prev

theorem accStep_at (n : ℕ) (h : n < cfg0.N) (prev : Vec Ideal S1024x512 .f32) (r : Fin 1024) (hh : Fin 512) :
    accStep m c n h prev (ix2 r hh) = prev (ix2 r hh) + accTerm (EA m c) (DA m c) n r hh := by
  unfold accStep accTerm
  refine (Pay.pay6_at (qb m c n h) (kb m c n h) prev r hh).trans ?_
  exact congrArg (prev (ix2 r hh) + ·) (Finset.sum_congr rfl fun j _ => by rw [blockWgt_eq, kb_at])

theorem totStep_at (n : ℕ) (h : n < cfg0.N) (prev : Vec Ideal S1024x1 .f32) (r : Fin 1024) (z : Fin 1) :
    totStep m c n h prev (ix2 r z) = prev (ix2 r z) + totTerm (EA m c) (DA m c) n r := by
  unfold totStep totTerm
  refine (Pay.pay5_at (qb m c n h) (kb m c n h) prev r z).trans ?_
  exact congrArg (prev (ix2 r z) + ·) (Finset.sum_congr rfl fun j _ => by rw [blockWgt_eq])

/-- The three things a point leaves: the output block, the weighted-sum accumulator, the weight total. -/
def outOf (n : ℕ) (h : n < cfg0.N) : Vec Ideal S1024x512 .f32 := (outsAt0 m c n h).1
def accOf (n : ℕ) (h : n < cfg0.N) : Vec Ideal S1024x512 .f32 := (outsAt0 m c n h).2.1
def totOf (n : ℕ) (h : n < cfg0.N) : Vec Ideal S1024x1 .f32 := (outsAt0 m c n h).2.2

/-! ## Reset at the first key block, step at the others -/

/-- The point before `t` (used only where `t` is not the first point of a run). -/
abbrev prevOuts (t : Fin cfg0.N) : Vec Ideal S1024x512 .f32 × Vec Ideal S1024x512 .f32 × Vec Ideal S1024x1 .f32 :=
  outsAt0 m c (t.val - 1) (Nat.lt_of_le_of_lt (Nat.sub_le _ _) t.isLt)

/-- At the first key block of a run both accumulators are reset to zero and then stepped. -/
theorem left_first (t : Fin cfg0.N) (h0 : t.val % 4 = 0) :
    (outsAt0 m c t.val t.isLt).2.1 = k0_pay6 (F := Ideal) (iblk m c 0 t) (iblk m c 1 t) (k0_pay1 (F := Ideal))
    ∧ (outsAt0 m c t.val t.isLt).2.2 = k0_pay5 (F := Ideal) (iblk m c 0 t) (iblk m c 1 t) (k0_pay2 (F := Ideal)) := by
  have h1 : ¬t.val % 4 = 3 := by omega
  rw [outsAt0_A m c t h0 h1]
  dsimp only
  exact ⟨Pieces.acc_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun hx => h1 ((hcond0_1 t).mp hx)) (iblk m c 0 t) (iblk m c 1 t),
    Pieces.tot_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun hx => h1 ((hcond0_1 t).mp hx)) (iblk m c 0 t) (iblk m c 1 t)⟩

/-- At every other key block both accumulators are stepped from what the point before left. -/
theorem left_later (t : Fin cfg0.N) (h0 : ¬t.val % 4 = 0) :
    (outsAt0 m c t.val t.isLt).2.1 = k0_pay6 (F := Ideal) (iblk m c 0 t) (iblk m c 1 t) (prevOuts m c t).2.1
    ∧ (outsAt0 m c t.val t.isLt).2.2 = k0_pay5 (F := Ideal) (iblk m c 0 t) (iblk m c 1 t) (prevOuts m c t).2.2 := by
  by_cases h1 : t.val % 4 = 3
  · rw [outsAt0_C m c t h0 h1]
    dsimp only
    exact ⟨Pieces.acc_C (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) ((hcond0_1 t).mpr h1) (iblk m c 0 t) (iblk m c 1 t) (prevOuts m c t).2.1 (prevOuts m c t).2.2,
      Pieces.tot_C (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) ((hcond0_1 t).mpr h1) (iblk m c 0 t) (iblk m c 1 t) (prevOuts m c t).2.1 (prevOuts m c t).2.2⟩
  · rw [outsAt0_B m c t h0 h1]
    dsimp only
    exact ⟨Pieces.acc_B (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) (fun hx => h1 ((hcond0_1 t).mp hx)) (iblk m c 0 t) (iblk m c 1 t) (prevOuts m c t).2.1 (prevOuts m c t).2.2,
      Pieces.tot_B (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) (fun hx => h1 ((hcond0_1 t).mp hx)) (iblk m c 0 t) (iblk m c 1 t) (prevOuts m c t).2.1 (prevOuts m c t).2.2⟩

/-- At the last key block the output block is the quotient of the two accumulators as that point leaves them. -/
theorem left_last (t : Fin cfg0.N) (h3 : t.val % 4 = 3) :
    (outsAt0 m c t.val t.isLt).1 = k0_pay7 (F := Ideal) (outsAt0 m c t.val t.isLt).2.1 (outsAt0 m c t.val t.isLt).2.2 := by
  have h0 : ¬t.val % 4 = 0 := by omega
  rw [outsAt0_C m c t h0 h3]
  dsimp only
  refine (Pieces.out_C (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) ((hcond0_1 t).mpr h3) (iblk m c 0 t) (iblk m c 1 t) (prevOuts m c t).2.1 (prevOuts m c t).2.2).trans ?_
  exact congrArg₂ (k0_pay7 (F := Ideal))
    (Pieces.acc_C (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) ((hcond0_1 t).mpr h3) (iblk m c 0 t) (iblk m c 1 t) (prevOuts m c t).2.1 (prevOuts m c t).2.2).symm
    (Pieces.tot_C (F := Ideal) c (grid0.coords t) (ms0_0 t) (hs0_0 t) (ms0_1 t) (hs0_1 t) (ms0_2 t) (hs0_2 t) scM0_0 (Memref.isWhole_whole _) scM0_1 (Memref.isWhole_whole _) (fun hx => h0 ((hcond0_0 t).mp hx)) ((hcond0_1 t).mpr h3) (iblk m c 0 t) (iblk m c 1 t) (prevOuts m c t).2.1 (prevOuts m c t).2.2).symm

theorem accOf_reset (n : ℕ) (h : n < cfg0.N) (h0 : n % 4 = 0) :
    accOf m c n h = accStep m c n h (k0_pay1 (F := Ideal)) := (left_first m c ⟨n, h⟩ h0).1

theorem totOf_reset (n : ℕ) (h : n < cfg0.N) (h0 : n % 4 = 0) :
    totOf m c n h = totStep m c n h (k0_pay2 (F := Ideal)) := (left_first m c ⟨n, h⟩ h0).2

theorem accOf_step (n : ℕ) (h : n + 1 < cfg0.N) (hne : ¬(n + 1) % 4 = 0) :
    accOf m c (n + 1) h = accStep m c (n + 1) h (accOf m c n (Nat.lt_of_succ_lt h)) := (left_later m c ⟨n + 1, h⟩ hne).1

theorem totOf_step (n : ℕ) (h : n + 1 < cfg0.N) (hne : ¬(n + 1) % 4 = 0) :
    totOf m c (n + 1) h = totStep m c (n + 1) h (totOf m c n (Nat.lt_of_succ_lt h)) := (left_later m c ⟨n + 1, h⟩ hne).2

theorem outOf_last (t : ℕ) (ht : t < cfg0.N) (h3 : t % 4 = 3) :
    outOf m c t ht = k0_pay7 (F := Ideal) (accOf m c t ht) (totOf m c t ht) := left_last m c ⟨t, ht⟩ h3

/-! ## The fold over a run of four points -/

/-- A point's addend to the weighted-sum accumulator, as a function of the block index. -/
def accAdd (n : ℕ) (i : S1024x512.Idx) : EReal := accTerm (EA m c) (DA m c) n (i 0) (i 1)
/-- A point's addend to the weight total, as a function of the block index. -/
def totAdd (n : ℕ) (i : S1024x1.Idx) : EReal := totTerm (EA m c) (DA m c) n (i 0)

theorem accOf_eq (t : ℕ) (ht : t < cfg0.N) (i : S1024x512.Idx) :
    accOf m c t ht i = 0 + ∑ s ∈ Finset.range (t % 4 + 1), accAdd m c (4 * (t / 4) + s) i := by
  have h' : 4 * (t / 4) + t % 4 < cfg0.N := by rw [Nat.div_add_mod]; exact ht
  rw [Pipeline.eq_accAt_of_mod (accOf m c) 4 (fun n h => accStep m c n h (k0_pay1 (F := Ideal))) (fun n h prev => accStep m c n h prev)
    (fun n h h0 => accOf_reset m c n h h0) (fun n h hne => accOf_step m c n h hne) (by decide) t ht h']
  refine Pipeline.accAt_add_apply _ _ (fun _ => (0 : EReal)) (accAdd m c) (4 * (t / 4)) 3 ?_ ?_ (t % 4) (by omega) h' i
  · intro h j
    obtain ⟨r, hh, rfl⟩ : ∃ (r : Fin 1024) (hh : Fin 512), j = ix2 r hh := ⟨j 0, j 1, eq_ix2 j⟩
    show accStep m c _ h _ (ix2 r hh) = 0 + accTerm _ _ _ r hh
    rw [accStep_at, Pay.pay1_at]
  · intro n h acc j _ _
    obtain ⟨r, hh, rfl⟩ : ∃ (r : Fin 1024) (hh : Fin 512), j = ix2 r hh := ⟨j 0, j 1, eq_ix2 j⟩
    show accStep m c n h acc (ix2 r hh) = acc (ix2 r hh) + accTerm _ _ n r hh
    rw [accStep_at]

theorem totOf_eq (t : ℕ) (ht : t < cfg0.N) (i : S1024x1.Idx) :
    totOf m c t ht i = 0 + ∑ s ∈ Finset.range (t % 4 + 1), totAdd m c (4 * (t / 4) + s) i := by
  have h' : 4 * (t / 4) + t % 4 < cfg0.N := by rw [Nat.div_add_mod]; exact ht
  rw [Pipeline.eq_accAt_of_mod (totOf m c) 4 (fun n h => totStep m c n h (k0_pay2 (F := Ideal))) (fun n h prev => totStep m c n h prev)
    (fun n h h0 => totOf_reset m c n h h0) (fun n h hne => totOf_step m c n h hne) (by decide) t ht h']
  refine Pipeline.accAt_add_apply _ _ (fun _ => (0 : EReal)) (totAdd m c) (4 * (t / 4)) 3 ?_ ?_ (t % 4) (by omega) h' i
  · intro h j
    obtain ⟨r, z, rfl⟩ : ∃ (r : Fin 1024) (z : Fin 1), j = ix2 r z := ⟨j 0, j 1, eq_ix2 j⟩
    show totStep m c _ h _ (ix2 r z) = 0 + totTerm _ _ _ r
    rw [totStep_at, Pay.pay2_at]
  · intro n h acc j _ _
    obtain ⟨r, z, rfl⟩ : ∃ (r : Fin 1024) (z : Fin 1), j = ix2 r z := ⟨j 0, j 1, eq_ix2 j⟩
    show totStep m c n h acc (ix2 r z) = acc (ix2 r z) + totTerm _ _ n r
    rw [totStep_at]

/-- THE VALUE A FLUSHING POINT LEAVES: at the last key block of a run the output block at (r, h) is the one-division
    form of the context at target position `qrow t r`, batch `batchOf t`, feature `h`. -/
theorem out_value (t : ℕ) (ht : t < cfg0.N) (h3 : t % 4 = 3) (r : Fin 1024) (hh : Fin 512) :
    outOf m c t ht (ix2 r hh) = blockForm (EA m c) (DA m c) (ix3 (qrow t r) (batchOf t) hh) := by
  rw [outOf_last m c t ht h3]
  refine (Pay.pay7_at (accOf m c t ht) (totOf m c t ht) r hh).trans ?_
  rw [accOf_eq, totOf_eq, h3]
  exact block_value (EA m c) (DA m c) t r hh

end Attention.Accumulate

end
-- ==== Proof.OutLayout.lean ====
/-
  Where the output blocks sit in the [2048, 8192] result array, that they cover it, and the final reshape.

  The blocked computation writes its result as an array of 2048 rows (target positions) and 8192 = 16·512 columns
  (batch-major: column `x` is batch `x / 512`, feature `x % 512`).  The array is cut into blocks of 1024 rows and
  512 columns; block `(qb, b)` holds rows `1024·qb … 1024·qb + 1023` and columns `512·b … 512·b + 511`, that is, query
  block `qb` of batch `b`.

  Grid point `n = 8·b + 4·qb + kb` works on block `(qb, b) = ((n / 4) mod 2, (n / 8) mod 16)` (the index map, decided
  once over the 128 points), and writes its block back when `kb = 3`, the last key block.  Consequences:

    * every pair `(qb, b)` with `qb < 2`, `b < 16` is the block of a point that writes back (`n = 8·b + 4·qb + 3`);
    * an index `(i₀, i₁)` of the array lies in the block of point `n` iff on each axis the coordinate lies in the
      block's range, so every index is covered by the writing point with `qb = i₀ / 1024`, `b = i₁ / 512`;
    * entry `(r, h)` of point `n`'s block is the array's entry at row `1024·qb + r` — the target position
      `qrow n r` — and column `512·b + h` with `b = batchOf n`.

  Finally the [2048, 8192] array is reshaped row-major to [2048, 16, 512]: both shapes list the same entries in the
  same order, and entry `(t, b, h)` of the result has position `(16·t + b)·512 + h = 8192·t + (512·b + h)`, which is
  the position of entry `(t, 512·b + h)` of the operand.
-/
import proofs.«174311_j62938450756123_2_alg».proof.Proof.Gen.KernelIdeal.Frame
import proofs.«174311_j62938450756123_2_alg».proof.Proof.BlockTerms
import Idealize.ShloMosaic.Lib.Pipeline.Value
import Idealize.ShloMosaic.Lib.ValueIdx

set_option maxRecDepth 16384

noncomputable section

namespace Attention.OutLayout

open Cert.KernelIdeal Cert.KernelIdeal.Gen Idealize.ShloMosaic Idealize.ShloMosaic.TcCoe
  Idealize.ShloMosaic.ValueIdx Idealize.SL.Sem

/-- The batch of column `x` of the 8192: `x / 512`. -/
def colBatch (x : Fin 8192) : Fin 16 := ⟨x.val / 512, by have := x.isLt; omega⟩

/-- The feature of column `x` of the 8192: `x % 512`. -/
def colFeat (x : Fin 8192) : Fin 512 := ⟨x.val % 512, Nat.mod_lt _ (by decide)⟩

/-! ### The index map of the output blocks -/

/-- Point `t` works on block (query block, batch) = `((t / 4) mod 2, (t / 8) mod 16)`: decided over the grid. -/
theorem idx2 : ∀ t : Fin cfg0.N, win0_2.index t (0 : Fin 2) = (t.val / 4) % 2
    ∧ win0_2.index t (1 : Fin 2) = (t.val / 8) % 16 :=
  (by decide +kernel : ∀ t : Fin grid0.N, win0_2.index t (0 : Fin 2) = (t.val / 4) % 2
    ∧ win0_2.index t (1 : Fin 2) = (t.val / 8) % 16)

/-- Every block is the block of a point that writes back: the point with the last key block. -/
theorem onto2 : ∀ (q0 : Fin 2) (q1 : Fin 16), ∃ t : Fin cfg0.N, t.val % 4 = 3
    ∧ win0_2.index t (0 : Fin 2) = q0.val ∧ win0_2.index t (1 : Fin 2) = q1.val := by
  intro q0 q1
  have hq0 : q0.val < 2 := q0.isLt
  have hq1 : q1.val < 16 := q1.isLt
  have hN : 8 * q1.val + 4 * q0.val + 3 < cfg0.N := by
    show 8 * q1.val + 4 * q0.val + 3 < grid0.N
    rw [N_0]; omega
  refine ⟨⟨8 * q1.val + 4 * q0.val + 3, hN⟩, ?_, ?_, ?_⟩
  · show (8 * q1.val + 4 * q0.val + 3) % 4 = 3
    omega
  · rw [(idx2 _).1]
    show (8 * q1.val + 4 * q0.val + 3) / 4 % 2 = q0.val
    omega
  · rw [(idx2 _).2]
    show (8 * q1.val + 4 * q0.val + 3) / 8 % 16 = q1.val
    omega

/-! ### Membership in a block, and the cover -/

/-- An index of the array is in point `t`'s block iff each coordinate is in the block's range on its axis. -/
theorem mem_blk (t : Fin cfg0.N) (i : S2048x8192.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v6).slice (win0_2.rect t)).set ↔ _
  rw [View.set_slice_whole, Rect.mem_set_unit]
  exact Iff.rfl

/-- Every index of the array is in the block of some point that writes back. -/
theorem cover (i : S2048x8192.Idx) :
    ∃ t : Fin cfg0.N, (cfg0.win 2).flush t = true ∧ i ∈ ((cfg0.win 2).blk t).view.set := by
  have hi0 : (i 0).val < 2048 := (i 0).isLt
  have hi1 : (i 1).val < 8192 := (i 1).isLt
  obtain ⟨t, ht, q0, q1⟩ := onto2 ⟨(i 0).val / 1024, by omega⟩ ⟨(i 1).val / 512, by omega⟩
  have q0' : win0_2.index t (0 : Fin 2) = (i 0).val / 1024 := q0
  have q1' : win0_2.index t (1 : Fin 2) = (i 1).val / 512 := q1
  refine ⟨t, (flush0_2 t).mpr ht, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-! ### A block's entry in the array -/

/-- Row `r` of point `t`'s block is the array's row `qrow t r`: target position `r` of the point's query block. -/
theorem emb_row (t : Fin cfg0.N) (r : Fin 1024) (h : Fin 512) :
    ((((cfg0.win 2).blk t).view.emb (ix2 r h)) 0).val = (Attention.qrow t.val r).val := by
  show win0_2.index t (0 : Fin 2) * 1024 + 1 * r.val = 1024 * ((t.val / 4) % 2) + r.val
  rw [(idx2 t).1]
  omega

/-- Column `h` of point `t`'s block is the array's column `512·b + h`, `b` the point's batch. -/
theorem emb_col (t : Fin cfg0.N) (r : Fin 1024) (h : Fin 512) :
    ((((cfg0.win 2).blk t).view.emb (ix2 r h)) 1).val = 512 * (Attention.batchOf t.val).val + h.val := by
  show win0_2.index t (1 : Fin 2) * 512 + 1 * h.val = 512 * ((t.val / 8) % 16) + h.val
  rw [(idx2 t).2]
  omega

/-! ### The final reshape -/

/-- The row-major reshape [2048, 8192] → [2048, 16, 512] read at `(t, b, h)` is the operand at `(t, 512·b + h)`. -/
theorem reshape_at (A : S2048x8192.Idx → EReal) (t : Fin 2048) (b : Fin 16) (h : Fin 512) :
    shapeCast S2048x16x512 A shapeCasts_S2048x8192_S2048x16x512 (ix3 t b h)
      = A (ix2 t ⟨512 * b.val + h.val, by have := b.isLt; have := h.isLt; omega⟩) := by
  refine shapeCast_apply A shapeCasts_S2048x8192_S2048x16x512 (ix3 t b h)
    (ix2 t ⟨512 * b.val + h.val, by have := b.isLt; have := h.isLt; omega⟩) ?_
  rewrite [Shape.rowMajor_val_two, Shape.rowMajor_val_three]
  have ht : t.val < 2048 := t.isLt
  have hb : b.val < 16 := b.isLt
  have hh : h.val < 512 := h.isLt
  show t.val * 8192 + (512 * b.val + h.val) = (t.val * 16 + b.val) * 512 + h.val
  omega

end Attention.OutLayout

end
-- ==== Proof.KernelValue.lean ====
/-
  The idealized kernel's run, read: its result array is the one-division form of the attention context.

  A grid point with key block 3 writes its output block back; that block is rows `1024·qb … 1024·qb + 1023`, columns
  `512·b … 512·b + 511` of the kernel call's [2048, 8192] result, and holds the context of those target positions in
  batch `b` (the accumulation module). The 32 such blocks tile the result, so the whole [2048, 8192] array is the
  context with column `512·b + h` standing for (batch b, feature h); the row-major reshape to [2048, 16, 512] that
  follows the call reads it back at (t, b, h).
-/
import proofs.«174311_j62938450756123_2_alg».proof.Proof.Gen.KernelIdeal.Frame
import proofs.«174311_j62938450756123_2_alg».proof.Proof.Accumulate
import proofs.«174311_j62938450756123_2_alg».proof.Proof.OutLayout
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Attention.KernelValue

open Cert.KernelIdeal Cert.KernelIdeal.Gen Attention.Accumulate

variable (m : (ℓ : Loc nD τ sig) → Buf (Elt Ideal) ℓ) (ρ : Dev nD → PrngReg)

/-- The kernel call's result array: row `t`, column `512·b + h` holds the context at (t, b, h). -/
def callResult (c : Dev nD) : S2048x8192.Idx → EReal := fun i =>
  blockForm (EA m c) (DA m c) (ix3 (i 0) (OutLayout.colBatch (i 1)) (OutLayout.colFeat (i 1)))

/-- A flushing point's output block at (r, h) is `callResult` at the array index the block puts (r, h) at. -/
theorem block_entry (c : Dev nD) (t : Fin cfg0.N) (h3 : t.val % 4 = 3) (r : Fin 1024) (hh : Fin 512) :
    (outsAt0 m c t.val t.isLt).1 (ix2 r hh) = callResult m c (((cfg0.win 2).blk t).view.emb (ix2 r hh)) := by
  refine (Accumulate.out_value m c t.val t.isLt h3 r hh).trans ?_
  unfold callResult
  have hr := OutLayout.emb_row t r hh
  have hc := OutLayout.emb_col t r hh
  have hb : (batchOf t.val).val < 16 := (batchOf t.val).isLt
  have hj1 : hh.val < 512 := hh.isLt
  refine congrArg (blockForm (EA m c) (DA m c)) (funext fun a => Fin.ext ?_)
  match a with
  | ⟨0, _⟩ => exact hr.symm
  | ⟨1, _⟩ =>
    show (batchOf t.val).val = ((((cfg0.win 2).blk t).view.emb (ix2 r hh)) 1).val / 512
    rw [hc]; omega
  | ⟨2, _⟩ =>
    show hh.val = ((((cfg0.win 2).blk t).view.emb (ix2 r hh)) 1).val % 512
    rw [hc]; omega

/-- What a flushing point writes back is its block of `callResult`. -/
theorem flushed_eq (c : Dev nD) (t : Fin cfg0.N) (hf : (cfg0.win 2).flush t = true) :
    (dats m 0 c).flushed 2 t = ((cfg0.win 2).blk t).view.read (Elt Ideal) (callResult m c) := by
  have h3 : t.val % 4 = 3 := (flush0_2 t).mp hf
  show (cfg0.win 2).cut (grid0.coords t) ((dats m 0 c).after 2 t) = _
  rw [after0_2]
  funext j
  show (outsAt0 m c t.val t.isLt).1 j = callResult m c (((cfg0.win 2).blk t).view.emb j)
  rw [eq_ix2 j]
  exact block_entry m c t h3 (j 0) (j 1)

/-- The flushing blocks tile the call's result, so it ends holding `callResult`. -/
theorem final_call (c : Dev nD) : (dats m 0 c).arrAt 2 cfg0.N = callResult m c :=
  (dats m 0 c).arrAt_eq_of_cover 2 (callResult m c) (flushed_eq m c) OutLayout.cover

/-- After the reshape that follows the call, @main's result is the context itself. -/
theorem final_result (c : Dev nD) :
    Pipeline.afterTail₀ cfgs (dats m) 0 (V0 m) [hostOps1] c main_v7 = blockForm (EA m c) (DA m c) := by
  unfold Pipeline.afterTail₀
  show StableHlo.after hostOps1 _ (Proc.devRef .tc main_v7) = _
  after_results
  have hA : (Pipeline.withArrays (cfgs 0).spec c (V0 m c) (fun w => (dats m 0 c).arrAt w (cfgs 0).N) (Proc.devRef .tc main_v6) : S2048x8192.Idx → EReal)
      = callResult m c := (Pipeline.withArrays_arr spec0 launch0.win.arr_inj c _ _ 2).trans (final_call m c)
  funext i
  obtain ⟨t', b, h, rfl⟩ : ∃ (t' : Fin 2048) (b : Fin 16) (h : Fin 512), i = ix3 t' b h := ⟨i 0, i 1, i 2, eq_ix3 i⟩
  show shapeCast S2048x16x512 (Pipeline.withArrays (cfgs 0).spec c (V0 m c) (fun w => (dats m 0 c).arrAt w (cfgs 0).N) (Proc.devRef .tc main_v6)) shapeCasts_S2048x8192_S2048x16x512 (ix3 t' b h) = _
  rw [hA, OutLayout.reshape_at]
  unfold callResult
  have hb : b.val < 16 := b.isLt
  have hh : h.val < 512 := h.isLt
  refine congrArg (blockForm (EA m c) (DA m c)) (funext fun a => Fin.ext ?_)
  match a with
  | ⟨0, _⟩ => rfl
  | ⟨1, _⟩ => show (512 * b.val + h.val) / 512 = b.val; omega
  | ⟨2, _⟩ => show (512 * b.val + h.val) % 512 = h.val; omega

/-- THE RUN, READ: every weakly fair execution of the idealized kernel's @main terminates with its result at the
    one-division form of the context of the argument arrays, and the arguments unchanged. -/
theorem run : θ_run defs (onTc (τ := τ) (main (F := Ideal))) ⟨m, fun _ => 0, ρ⟩ fun r => ∀ c : Dev nD,
      r.2.mem ((c.tc : Thread nD τ).loc main_v7) = blockForm (EA m c) (DA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (final_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Attention.KernelValue

end
-- ==== Proof.RefIsSoftmax.lean ====
/-
  The reference program's result, read one operation at a time, is the softmax arrangement of the attention context.

  The reference receives the encoder outputs E : [2048, 16, 1024] and the decoder outputs D : [2048, 16, 512] and
  computes, stage by stage (s a source position, t a target position, b a batch entry, h a feature):

     0. E reshaped to [2048, 16, 2, 512]: entry (s, b, k, h) is E[s, b, 512 * k + h], so k is the direction;
     1. the direction axis summed from the initial value 0:      (s, b, h)  |->  E[s, b, h] + E[s, b, 512 + h] = enc s b h;
     2. batch moved to the front:                                (b, s, h)  |->  enc s b h;
     3. D with batch moved to the front:                         (b, t, h)  |->  D[t, b, h];
     4. the contraction over the 512 features:                   (b, s, t)  |->  sum_h enc s b h * D[t, b, h] = score b s t;
     5. the exponential:                                         (b, s, t)  |->  exp (score b s t) = wgt b s t;
     6. the source axis summed from the initial value 0:         (b, t)     |->  sum_s wgt b s t = total b t;
     7, 8. that total broadcast back along the source axis:      (b, s, t)  |->  total b t;
     9. the quotient:                                            (b, s, t)  |->  wgt b s t / total b t;
    10. source and target axes exchanged:                        (b, t, s)  |->  wgt b s t / total b t;
    11. the contraction over the 2048 source positions:          (b, t, h)  |->  sum_s (wgt b s t / total b t) * enc s b h;
    12. batch moved back to the middle:                          (t, b, h)  |->  the same sum.

  Stage 12 at (t, b, h) is therefore softmaxForm E D at (t, b, h): each weight normalised first, then the weighted sum.
  Every step is an equality of extended reals: the only arithmetic facts used are 0 + x = x (the two initial values)
  and the commutativity of one product (the score multiplies enc by D, the specification D by enc).
-/
import proofs.«174311_j62938450756123_2_alg».proof.Proof.Spec
import proofs.«174311_j62938450756123_2_alg».proof.Proof.Gen.ReferenceIdeal.Read
import Idealize.ShloMosaic.PureOps.Ideal
import Idealize.ShloMosaic.Lib.ValueIdx

noncomputable section

namespace Attention.Ref

open Cert.ReferenceIdeal Cert.ReferenceIdeal.Read Idealize.ShloMosaic Idealize.ShloMosaic.ValueIdx

/-- The encoder outputs as the reference receives them. -/
abbrev TE : Type := (⟨Cert.ReferenceIdeal.S2048x16x1024, .f32⟩ : BufTy).Contents (Elt Ideal)
/-- The decoder outputs as the reference receives them. -/
abbrev TD : Type := (⟨Cert.ReferenceIdeal.S2048x16x512, .f32⟩ : BufTy).Contents (Elt Ideal)

/-! ## The reshape's index: entry (s, b, k, h) of the four-axis view is column 512 * k + h -/

/-- Direction 0 of the four-axis view reads the first 512 columns. -/
theorem reshape_idx_lo (s : Fin 2048) (b : Fin 16) (h : Fin 512) :
    idx_main_v0 (ix4 s b (0 : Fin 2) h) = ix3 s b (lo h) := by
  funext a
  refine Fin.ext ?_
  have hs := s.isLt
  have hb := b.isLt
  have hh := h.isLt
  match a with
  | ⟨0, _⟩ => show (((s.val * 16 + b.val) * 2 + 0) * 512 + h.val) / 16384 = s.val; omega
  | ⟨1, _⟩ => show (((s.val * 16 + b.val) * 2 + 0) * 512 + h.val) / 1024 % 16 = b.val; omega
  | ⟨2, _⟩ => show (((s.val * 16 + b.val) * 2 + 0) * 512 + h.val) % 1024 = h.val; omega

/-- Direction 1 of the four-axis view reads the last 512 columns. -/
theorem reshape_idx_hi (s : Fin 2048) (b : Fin 16) (h : Fin 512) :
    idx_main_v0 (ix4 s b (1 : Fin 2) h) = ix3 s b (hi h) := by
  funext a
  refine Fin.ext ?_
  have hs := s.isLt
  have hb := b.isLt
  have hh := h.isLt
  match a with
  | ⟨0, _⟩ => show (((s.val * 16 + b.val) * 2 + 1) * 512 + h.val) / 16384 = s.val; omega
  | ⟨1, _⟩ => show (((s.val * 16 + b.val) * 2 + 1) * 512 + h.val) / 1024 % 16 = b.val; omega
  | ⟨2, _⟩ => show (((s.val * 16 + b.val) * 2 + 1) * 512 + h.val) % 1024 = 512 + h.val; omega

/-! ## The stages, each at its coordinates -/

/-- Stage 1: the two directions summed. -/
theorem v1_at (x1 : TE) (s : Fin 2048) (b : Fin 16) (h : Fin 512) :
    val_main_v1 (F := Ideal) x1 (ix3 s b h) = Attention.enc x1 s b h := by
  have e : ∀ k : Fin 2, idx_main_v1 (ix3 s b h) k = ix4 s b k h := fun k =>
    funext fun a => Fin.ext (by match a with | ⟨0, _⟩ => rfl | ⟨1, _⟩ => rfl | ⟨2, _⟩ => rfl | ⟨3, _⟩ => rfl)
  rw [val_main_v1_apply, val_main_cst_apply, Ideal.ofBits_def, Ideal.ofBits_zero_f32, zero_add, Fin.sum_univ_two,
    val_main_v0_apply, val_main_v0_apply, e, e, reshape_idx_lo, reshape_idx_hi]
  rfl

/-- Stage 2: batch first. -/
theorem v2_at (x1 : TE) (b : Fin 16) (s : Fin 2048) (h : Fin 512) :
    val_main_v2 (F := Ideal) x1 (ix3 b s h) = Attention.enc x1 s b h := by
  have e : idx_main_v2 (ix3 b s h) = ix3 s b h :=
    funext fun a => Fin.ext (by match a with | ⟨0, _⟩ => rfl | ⟨1, _⟩ => rfl | ⟨2, _⟩ => rfl)
  rw [val_main_v2_apply, e, v1_at]

/-- Stage 3: the decoder outputs, batch first. -/
theorem v3_at (x2 : TD) (b : Fin 16) (t : Fin 2048) (h : Fin 512) :
    val_main_v3 (F := Ideal) x2 (ix3 b t h) = x2 (ix3 t b h) := by
  have e : idx_main_v3 (ix3 b t h) = ix3 t b h :=
    funext fun a => Fin.ext (by match a with | ⟨0, _⟩ => rfl | ⟨1, _⟩ => rfl | ⟨2, _⟩ => rfl)
  rw [val_main_v3_apply, e]

/-- Stage 4: the score, the contraction over the features. -/
theorem v4_at (x1 : TE) (x2 : TD) (b : Fin 16) (s t : Fin 2048) :
    val_main_v4 (F := Ideal) x1 x2 (ix3 b s t) = Attention.score x1 x2 b s t := by
  have el : ∀ k : Fin 512, lidx_main_v4 (ix3 b s t) k = ix3 b s k := fun k =>
    funext fun a => Fin.ext (by match a with | ⟨0, _⟩ => rfl | ⟨1, _⟩ => rfl | ⟨2, _⟩ => rfl)
  have er : ∀ k : Fin 512, ridx_main_v4 (ix3 b s t) k = ix3 b t k := fun k =>
    funext fun a => Fin.ext (by match a with | ⟨0, _⟩ => rfl | ⟨1, _⟩ => rfl | ⟨2, _⟩ => rfl)
  rw [val_main_v4_apply]
  unfold Attention.score
  refine Finset.sum_congr rfl fun k _ => ?_
  rw [el, er, v2_at, v3_at, mul_comm]

/-- Stage 5: the unnormalised weight, the exponential of the score. -/
theorem v5_at (x1 : TE) (x2 : TD) (b : Fin 16) (s t : Fin 2048) :
    val_main_v5 (F := Ideal) x1 x2 (ix3 b s t) = Attention.wgt x1 x2 b s t := by
  rw [val_main_v5_apply, v4_at, Ideal.hostUnary_exp_def]
  rfl

/-- Stage 6: the denominator, the weights summed over the source positions. -/
theorem v6_at (x1 : TE) (x2 : TD) (b : Fin 16) (t : Fin 2048) :
    val_main_v6 (F := Ideal) x1 x2 (ix2 b t) = Attention.total x1 x2 b t := by
  have e : ∀ k : Fin 2048, idx_main_v6 (ix2 b t) k = ix3 b k t := fun k =>
    funext fun a => Fin.ext (by match a with | ⟨0, _⟩ => rfl | ⟨1, _⟩ => rfl | ⟨2, _⟩ => rfl)
  rw [val_main_v6_apply, val_main_cst_0_apply, Ideal.ofBits_def, Ideal.ofBits_zero_f32, zero_add]
  unfold Attention.total
  refine Finset.sum_congr rfl fun k _ => ?_
  rw [e, v5_at]

/-- Stages 7 and 8: the denominator broadcast back along the source axis. -/
theorem v8_at (x1 : TE) (x2 : TD) (b : Fin 16) (s t : Fin 2048) :
    val_main_v8 (F := Ideal) x1 x2 (ix3 b s t) = Attention.total x1 x2 b t := by
  have e : idx_main_v7 (idx_main_v8 (ix3 b s t)) = ix2 b t :=
    funext fun a => Fin.ext (by match a with | ⟨0, _⟩ => rfl | ⟨1, _⟩ => rfl)
  rw [val_main_v8_apply, val_main_v7_apply, e, v6_at]

/-- Stage 9: the normalised weight. -/
theorem v9_at (x1 : TE) (x2 : TD) (b : Fin 16) (s t : Fin 2048) :
    val_main_v9 (F := Ideal) x1 x2 (ix3 b s t)
      = Ideal.div (Attention.wgt x1 x2 b s t) (Attention.total x1 x2 b t) := by
  rw [val_main_v9_apply, v5_at, v8_at, Ideal.hostDivf_def]

/-- Stage 10: the normalised weight with target before source. -/
theorem v10_at (x1 : TE) (x2 : TD) (b : Fin 16) (t s : Fin 2048) :
    val_main_v10 (F := Ideal) x1 x2 (ix3 b t s)
      = Ideal.div (Attention.wgt x1 x2 b s t) (Attention.total x1 x2 b t) := by
  have e : idx_main_v10 (ix3 b t s) = ix3 b s t :=
    funext fun a => Fin.ext (by match a with | ⟨0, _⟩ => rfl | ⟨1, _⟩ => rfl | ⟨2, _⟩ => rfl)
  rw [val_main_v10_apply, e, v9_at]

/-- Stage 11: the context, the contraction over the source positions. -/
theorem v11_at (x1 : TE) (x2 : TD) (b : Fin 16) (t : Fin 2048) (h : Fin 512) :
    val_main_v11 (F := Ideal) x1 x2 (ix3 b t h)
      = ∑ s : Fin 2048, Ideal.div (Attention.wgt x1 x2 b s t) (Attention.total x1 x2 b t) * Attention.enc x1 s b h := by
  have el : ∀ k : Fin 2048, lidx_main_v11 (ix3 b t h) k = ix3 b t k := fun k =>
    funext fun a => Fin.ext (by match a with | ⟨0, _⟩ => rfl | ⟨1, _⟩ => rfl | ⟨2, _⟩ => rfl)
  have er : ∀ k : Fin 2048, ridx_main_v11 (ix3 b t h) k = ix3 b k h := fun k =>
    funext fun a => Fin.ext (by match a with | ⟨0, _⟩ => rfl | ⟨1, _⟩ => rfl | ⟨2, _⟩ => rfl)
  rw [val_main_v11_apply]
  refine Finset.sum_congr rfl fun k _ => ?_
  rw [el, er, v10_at, v2_at]

/-- THE REFERENCE IS THE SOFTMAX ARRANGEMENT: its last stage, at every index, is the context with each weight
    normalised before the weighted sum. -/
theorem ref_is_softmaxForm
    (x1 : (⟨Cert.ReferenceIdeal.S2048x16x1024, .f32⟩ : BufTy).Contents (Elt Ideal))
    (x2 : (⟨Cert.ReferenceIdeal.S2048x16x512, .f32⟩ : BufTy).Contents (Elt Ideal)) :
    Cert.ReferenceIdeal.Read.val_main_v12 (F := Ideal) x1 x2 = Attention.softmaxForm x1 x2 := by
  funext i
  obtain ⟨t, b, h, rfl⟩ : ∃ (t : Fin 2048) (b : Fin 16) (h : Fin 512), i = ix3 t b h := ⟨i 0, i 1, i 2, eq_ix3 i⟩
  have e : idx_main_v12 (ix3 t b h) = ix3 b t h :=
    funext fun a => Fin.ext (by match a with | ⟨0, _⟩ => rfl | ⟨1, _⟩ => rfl | ⟨2, _⟩ => rfl)
  rw [val_main_v12_apply, e, v11_at]
  rfl

end Attention.Ref

end
-- ==== Proof.RealLaw.lean ====
/-
  The one law that joins the two sides, over the real numbers.

  For weights `e s > 0` (the exponentials of the scores) and values `v s`, the weighted sum taken first and divided
  once by the total weight equals the sum of the values each weighted by its normalised weight:
      (∑ s, e s * v s) / (∑ s, e s) = ∑ s, (e s / ∑ s', e s') * v s.
  This is distributivity of division over a finite sum; it holds in any field, with no condition on the total.
-/
import Mathlib.Algebra.BigOperators.Field
import Mathlib.Data.Real.Basic

namespace Attention

open Finset

/-- Dividing a weighted sum by the total weight is weighting by the normalised weights. -/
theorem weighted_sum_div {ι : Type*} (S : Finset ι) (e v : ι → ℝ) (D : ℝ) :
    (∑ s ∈ S, e s * v s) / D = ∑ s ∈ S, (e s / D) * v s := by
  rw [Finset.sum_div]
  exact Finset.sum_congr rfl fun s _ => mul_div_right_comm (e s) (v s) D

end Attention
-- ==== Proof.FormsAgree.lean ====
/-
  On real entries the two arrangements of the attention context are one function.

  `blockForm` takes the weighted sum first and divides once by the softmax denominator; `softmaxForm` normalises
  each weight first and then sums.  Over the real numbers these agree by distributivity of division over a finite
  sum.  Over the extended reals the law is NOT unconditional: distributing a division over a sum fails at the
  infinities (a sum holding both `⊤` and `⊥` terms, a quotient `⊤ / ⊤`, or a product `0 * ⊤` has a conventional
  value that the rearranged expression does not share), and a division by a zero denominator is a corner of its
  own.  So finiteness of every entry is needed, and it is used as follows.

  When every entry of the two argument arrays is (the coercion of) a real number, every intermediate quantity is
  again the coercion of a real number:
    * the summed directions `enc`  (a sum of two reals),
    * the score                    (a finite sum of products of reals),
    * the weight                   (the exponential of a real, which is a positive real),
    * the denominator `total`      (a finite sum of positive reals over the nonempty index set of 2048 source
                                    positions, hence a POSITIVE real, in particular nonzero).
  Because the denominator is a nonzero real, the extended-real division by it is multiplication by the coercion
  of its real reciprocal.  Both arrangements are then coercions of real expressions, and the real equation is the
  weighted-sum law `(∑ s, e s * v s) / D = ∑ s, (e s / D) * v s`.
-/
import proofs.«174311_j62938450756123_2_alg».proof.Proof.Spec
import proofs.«174311_j62938450756123_2_alg».proof.Proof.RealLaw
import Idealize.ShloMosaic.PureOps.Ideal
import Mathlib.Data.EReal.Operations
import Mathlib.Analysis.SpecialFunctions.Exp

noncomputable section

namespace Attention

open Idealize.ShloMosaic Idealize.ShloMosaic.ValueIdx

/-- The coercion of the reals into the extended reals commutes with finite sums. -/
theorem coe_sum {ι : Type*} (S : Finset ι) (f : ι → ℝ) :
    ((∑ i ∈ S, f i : ℝ) : EReal) = ∑ i ∈ S, (f i : EReal) := by
  classical
  induction S using Finset.induction_on with
  | empty => simp
  | insert x S hx ih => rw [Finset.sum_insert hx, Finset.sum_insert hx, EReal.coe_add, ih]

/-! ### The real-valued twins of the quantities of the specification -/

/-- The two directions summed, over the reals. -/
def encR (a : SE.Idx → ℝ) (s : Fin 2048) (b : Fin 16) (h : Fin 512) : ℝ :=
  a (ix3 s b (lo h)) + a (ix3 s b (hi h))

/-- The dot-product score, over the reals. -/
def scoreR (a : SE.Idx → ℝ) (d : SD.Idx → ℝ) (b : Fin 16) (s t : Fin 2048) : ℝ :=
  ∑ h : Fin 512, d (ix3 t b h) * encR a s b h

/-- The unnormalised softmax weight, over the reals: a positive number. -/
def wgtR (a : SE.Idx → ℝ) (d : SD.Idx → ℝ) (b : Fin 16) (s t : Fin 2048) : ℝ :=
  Real.exp (scoreR a d b s t)

/-- The softmax denominator, over the reals. -/
def totalR (a : SE.Idx → ℝ) (d : SD.Idx → ℝ) (b : Fin 16) (t : Fin 2048) : ℝ :=
  ∑ s : Fin 2048, wgtR a d b s t

/-! ### At real entries each extended-real quantity is the coercion of its real twin -/

theorem enc_coe (a : SE.Idx → ℝ) (s : Fin 2048) (b : Fin 16) (h : Fin 512) :
    enc (fun i => ((a i : ℝ) : EReal)) s b h = ((encR a s b h : ℝ) : EReal) := by
  simp only [enc, encR, EReal.coe_add]

theorem score_coe (a : SE.Idx → ℝ) (d : SD.Idx → ℝ) (b : Fin 16) (s t : Fin 2048) :
    score (fun i => ((a i : ℝ) : EReal)) (fun i => ((d i : ℝ) : EReal)) b s t
      = ((scoreR a d b s t : ℝ) : EReal) := by
  simp only [score, scoreR, enc_coe, coe_sum, EReal.coe_mul]

theorem wgt_coe (a : SE.Idx → ℝ) (d : SD.Idx → ℝ) (b : Fin 16) (s t : Fin 2048) :
    wgt (fun i => ((a i : ℝ) : EReal)) (fun i => ((d i : ℝ) : EReal)) b s t
      = ((wgtR a d b s t : ℝ) : EReal) := by
  simp only [wgt, wgtR, score_coe, Ideal.exp_coe]

theorem total_coe (a : SE.Idx → ℝ) (d : SD.Idx → ℝ) (b : Fin 16) (t : Fin 2048) :
    total (fun i => ((a i : ℝ) : EReal)) (fun i => ((d i : ℝ) : EReal)) b t
      = ((totalR a d b t : ℝ) : EReal) := by
  simp only [total, totalR, wgt_coe, coe_sum]

/-- The denominator is a sum of exponentials over a nonempty index set, hence positive. -/
theorem totalR_pos (a : SE.Idx → ℝ) (d : SD.Idx → ℝ) (b : Fin 16) (t : Fin 2048) :
    0 < totalR a d b t :=
  Finset.sum_pos (fun s _ => Real.exp_pos (scoreR a d b s t)) Finset.univ_nonempty

/-! ### The two arrangements agree -/

/-- The pointwise statement, at batch `b`, target position `t` and feature `h`: at real entries, dividing the
    weighted sum once by the denominator equals weighting by the normalised weights. -/
theorem forms_agree_at (a : SE.Idx → ℝ) (d : SD.Idx → ℝ) (b : Fin 16) (t : Fin 2048) (h : Fin 512) :
    Ideal.div
        (∑ s : Fin 2048, wgt (fun i => ((a i : ℝ) : EReal)) (fun i => ((d i : ℝ) : EReal)) b s t
            * enc (fun i => ((a i : ℝ) : EReal)) s b h)
        (total (fun i => ((a i : ℝ) : EReal)) (fun i => ((d i : ℝ) : EReal)) b t)
      = ∑ s : Fin 2048,
          Ideal.div (wgt (fun i => ((a i : ℝ) : EReal)) (fun i => ((d i : ℝ) : EReal)) b s t)
              (total (fun i => ((a i : ℝ) : EReal)) (fun i => ((d i : ℝ) : EReal)) b t)
            * enc (fun i => ((a i : ℝ) : EReal)) s b h := by
  have hne : totalR a d b t ≠ 0 := ne_of_gt (totalR_pos a d b t)
  -- every quantity is a coerced real; the division is multiplication by the coerced reciprocal
  simp only [total_coe, wgt_coe, enc_coe, Ideal.div_coe hne]
  -- pull the coercion outside the products and the sums
  simp only [← EReal.coe_mul, ← coe_sum]
  -- the equation between the two real numbers
  congr 1
  rw [mul_one_div, weighted_sum_div]
  exact Finset.sum_congr rfl fun s _ => by rw [mul_one_div]

/-- At real entries, the context with one division at the end and the context with each weight normalised
    first are the same function of the index. -/
theorem blockForm_eq_softmaxForm (a : SE.Idx → ℝ) (d : SD.Idx → ℝ) :
    blockForm (fun i => ((a i : ℝ) : EReal)) (fun i => ((d i : ℝ) : EReal))
      = softmaxForm (fun i => ((a i : ℝ) : EReal)) (fun i => ((d i : ℝ) : EReal)) := by
  funext i
  exact forms_agree_at a d (i 1) (i 0) (i 2)

end Attention

end
-- ==== Proof.FiniteInputs.lean ====
/-
  From "every entry is finite" to "every entry is a real number".

  The precondition says, of each of the two float arrays, that every entry x satisfies |x| < +∞, the
  conjunction of all these comparisons being true. Over the extended reals |x| is max x (-x), and +∞ is the
  value the pattern 0x7F800000 denotes. If x = +∞ then |x| = +∞; if x = -∞ then -x = +∞ and again
  |x| = +∞; in neither case is |x| < +∞. So a finite x is neither infinity, and an extended real that is
  neither infinity is (the image of) a real number: x = ((x.toReal : ℝ) : EReal).

  Steps: the conjunction of two "all" statements is one exactly when both are; an "all" over an array (an
  and-reduction over every axis, started from true) is one exactly when every element is; the element is the
  comparison |x i| < +∞ just described.
-/
import proofs.«174311_j62938450756123_2_alg».proof.Defs
import proofs.«174311_j62938450756123_2_alg».proof.Proof.Gen.Pre_finite_inputs
import Idealize.ShloMosaic.Lib.ReduceAll
import Idealize.ShloMosaic.Lib.ValueIdx
import Idealize.ShloMosaic.PureOps.Ideal

noncomputable section

namespace Attention.Finite

open Idealize.ShloMosaic Idealize.ShloMosaic.ValueIdx

/-- The shape of a scalar has exactly one index. -/
instance : Subsingleton Cert.Pre_finite_inputs.S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value max x (-x) compares below +∞ is neither infinity. -/
theorem ne_top_bot_of_abs_lt_inf (x : EReal)
    (h : Ideal.cmp .olt (max x (-x)) (Ideal.ofBits .f32 0x7F800000#32) = 1#1) : x ≠ ⊤ ∧ x ≠ ⊥ := by
  rw [inf_eq_top] at h
  induction x using EReal.rec with
  | bot => simp [Ideal.cmp] at h
  | coe r => exact ⟨EReal.coe_ne_top r, EReal.coe_ne_bot r⟩
  | top => simp [Ideal.cmp] at h

/-- One array: if the and-reduction over all axes of the comparisons |x i| < +∞ is one, every entry of x is a real. -/
theorem all_real {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32)
    (h : Host.reduce IntOp.andi
          (cmpf .olt (Host.absf x)
            (broadcastInDim S ![] hb (constant Cert.Pre_finite_inputs.S_ .f32 0x7F800000#32)))
          (constantI Cert.Pre_finite_inputs.S_ 1 1#1) hr hu ix0 = 1#1) :
    ∃ a : S.Idx → ℝ, x = fun i => ((a i : ℝ) : EReal) := by
  have hne : ∀ i, x i ≠ ⊤ ∧ x i ≠ ⊥ := fun i =>
    ne_top_bot_of_abs_lt_inf (x i) (Host.reduce_andi_all _ _ hr hu ix0 h i)
  exact ⟨fun i => (x i).toReal, funext fun i => (EReal.coe_toReal (hne i).1 (hne i).2).symm⟩

/-- The precondition is one at its single index: then both float arguments have only real entries. -/
theorem real_entries [Cert.Pre_finite_inputs.Facts]
    (x0 : IVec Cert.Pre_finite_inputs.S2048x16 32)
    (x1 : FVec Ideal Cert.Pre_finite_inputs.S2048x16x1024 .f32)
    (x2 : FVec Ideal Cert.Pre_finite_inputs.S2048x16x512 .f32)
    (h : Cert.Pre_finite_inputs.fn (F := Ideal) x0 x1 x2 = fun _ => 1#1) :
    (∃ a : Cert.Pre_finite_inputs.S2048x16x1024.Idx → ℝ, x1 = fun i => ((a i : ℝ) : EReal))
    ∧ (∃ d : Cert.Pre_finite_inputs.S2048x16x512.Idx → ℝ, x2 = fun i => ((d i : ℝ) : EReal)) := by
  have h0 := congrFun h ix0
  dsimp only [Cert.Pre_finite_inputs.fn] at h0
  obtain ⟨h1, h2⟩ := IntOp.andi_eq_one.1 h0
  exact ⟨all_real _ _ _ x1 h1, all_real _ _ _ x2 h2⟩

/-- The idealized kernel's precondition: on every device both float arguments have only real entries. -/
theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∃ a : Cert.KernelIdeal.S2048x16x1024.Idx → ℝ,
        m ((c.tc : Thread Cert.KernelIdeal.nD Cert.KernelIdeal.τ).loc Cert.KernelIdeal.main_arg1)
          = fun i => ((a i : ℝ) : EReal))
    ∧ (∃ d : Cert.KernelIdeal.S2048x16x512.Idx → ℝ,
        m ((c.tc : Thread Cert.KernelIdeal.nD Cert.KernelIdeal.τ).loc Cert.KernelIdeal.main_arg2)
          = fun i => ((d i : ℝ) : EReal)) :=
  real_entries _ _ _ (hpre c)

end Attention.Finite

end
-- ==== Proof.lean ====
/-
  Dense sequence-to-sequence attention: the blocked kernel against the plain reference, over the extended reals.

  With `enc s b h = E[s, b, h] + E[s, b, 512 + h]` (the two encoder directions summed), `score b s t = ∑ h, D[t, b, h] · enc s b h`
  and `wgt = exp score` (no maximum subtracted), the context at (t, b, h) is the softmax over the source positions `s` of
  the scores, applied to `enc`.

  The kernel walks a grid of (batch, query block of 1024 target positions, key block of 512 source positions). Per query
  block it keeps two accumulators, `∑ wgt · enc` and `∑ wgt`, resets them at the first key block, adds one key block's 512
  terms per grid point, and at the last key block stores their quotient: `(∑ s, wgt · enc) / (∑ s, wgt)`, ONE division.
  The reference normalises each weight first: `∑ s, (wgt / ∑ s', wgt) · enc`.

  The two agree when every input entry is a real number: then every score is real, every weight a positive real, the
  total a positive real, and dividing a finite sum by a nonzero real distributes over the sum. (At infinite entries the
  distributive step fails, which is why the precondition is used.) Changes of float format are the identity at the
  ideal instance, a matrix product into a zero accumulator is the plain sum of products, a sum taken in four blocks of
  512 is the sum over all 2048 (addition of extended reals is commutative and associative, and `0 + x = x`).

  The three frames are the generated ones (the reference's is its generated run with the result dropped); the ideal pass
  rewrote nothing, so `preserves` is trivial.
-/
import proofs.«174311_j62938450756123_2_alg».proof.Defs
import proofs.«174311_j62938450756123_2_alg».proof.Proof.Gen.Kernel
import proofs.«174311_j62938450756123_2_alg».proof.Proof.Gen.Kernel.Frame
import proofs.«174311_j62938450756123_2_alg».proof.Proof.Gen.KernelIdeal
import proofs.«174311_j62938450756123_2_alg».proof.Proof.Gen.KernelIdeal.Frame
import proofs.«174311_j62938450756123_2_alg».proof.Proof.Gen.ReferenceIdeal
import proofs.«174311_j62938450756123_2_alg».proof.Proof.Gen.Pre_finite_inputs
import proofs.«174311_j62938450756123_2_alg».proof.Proof.Gen.ReferenceIdeal.Run
import proofs.«174311_j62938450756123_2_alg».proof.Proof.Gen.ReferenceIdeal.Read
import proofs.«174311_j62938450756123_2_alg».proof.Proof.KernelValue
import proofs.«174311_j62938450756123_2_alg».proof.Proof.RefIsSoftmax
import proofs.«174311_j62938450756123_2_alg».proof.Proof.FormsAgree
import proofs.«174311_j62938450756123_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's run, read: its result is the normalise-first form of the context of ITS argument arrays (the
    generated run's composed term is the last stage, and the stages read back one at a time are `softmaxForm`). -/
theorem reference_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v12)
          = Attention.softmaxForm (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((Cert.ReferenceIdeal.Read.val_main_v12_eq (F := Ideal) _ _).trans (Attention.Ref.ref_is_softmaxForm _ _)), (h c).2⟩)
    (Cert.ReferenceIdeal.Value.run (F := Ideal) m' ρ')

/-- On real entries the normalise-first form of arrays that agree with the kernel's arguments is the one-division
    form of the kernel's arguments. -/
theorem forms_meet {E E' : Attention.SE.Idx → EReal} {D D' : Attention.SD.Idx → EReal} (hE : E' = E) (hD : D' = D)
    (hEr : ∃ a : Attention.SE.Idx → ℝ, E = fun i => ((a i : ℝ) : EReal)) (hDr : ∃ d : Attention.SD.Idx → ℝ, D = fun i => ((d i : ℝ) : EReal)) :
    Attention.softmaxForm E' D' = Attention.blockForm E D := by
  obtain ⟨a, rfl⟩ := hEr
  obtain ⟨d, rfl⟩ := hDr
  rw [hE, hD]
  exact (Attention.blockForm_eq_softmaxForm a d).symm

/-- The kernel's result is the one-division form of the context of its arguments (the kernel's run, read); the
    reference's is the normalise-first form of ITS arguments (the reference's run, read), which agree with the kernel's;
    the arguments' entries are real by the precondition, and on real entries the two forms are equal. -/
theorem algebraic : Cert.algebraic_KernelIdeal_ReferenceIdeal := by
  intro m ρ m' ρ' hpre hagree
  refine ⟨fun c => Attention.blockForm (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Attention.KernelValue.run m ρ, ?_⟩
  refine (θ_run Cert.ReferenceIdeal.defs _ _).mono (fun _ h c => ⟨(h c).1.trans ?_, (h c).2⟩) (reference_run m' ρ')
  exact forms_meet (hagree c).2.1 (hagree c).2.2 (Attention.Finite.real_of_pre m hpre c).1 (Attention.Finite.real_of_pre m hpre c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
